-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x64 .f32) (main_arg3 : FVec F S64x64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64x64 : Shape := ⟨2, ![64, 64]⟩
abbrev S10000x64 : Shape := ⟨2, ![10000, 64]⟩
abbrev S400x10000 : Shape := ⟨2, ![400, 10000]⟩
abbrev S400x64 : Shape := ⟨2, ![400, 64]⟩

abbrev nBuf : Space → Nat
  | .hbm => 5
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x64, .f32⟩
  | .hbm, ⟨4, _⟩ => ⟨S10000x64, .f32⟩
  | .local _ .vmem, ⟨0, _⟩ => ⟨S10000x128, .f32⟩
  | .local _ .vmem, ⟨1, _⟩ => ⟨S128x64, .f32⟩
  | .local _ .vmem, ⟨2, _⟩ => ⟨S64x64, .f32⟩
  | .local _ .vmem, ⟨3, _⟩ => ⟨S400x10000, .f32⟩
  | .local _ .vmem, ⟨4, _⟩ => ⟨S400x10000, .f32⟩
  | .local _ .vmem, ⟨5, _⟩ => ⟨S400x64, .f32⟩
  | .local _ .vmem, ⟨6, _⟩ => ⟨S400x64, .f32⟩
  | .local _ .vmem, ⟨7, _⟩ => ⟨S10000x64, .bf16⟩
  | .local _ .vmem, ⟨8, _⟩ => ⟨S10000x64, .bf16⟩
  | .local _ .vmem, ⟨9, _⟩ => ⟨S400x10000, .bf16⟩
  | .local _ .vmem, ⟨10, _⟩ => ⟨S400x10000, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 25], ![false, false]⟩

def k0_cond4 (i : grid0.Coords) : BitVec 1 :=
  let arg0 : BitVec 32 := BitVec.ofNat 32 (i 0).val
  let c0_i32_6 : BitVec 32 := 0#32
  let v15 : BitVec 1 := Scalar.cmpi .eq arg0 c0_i32_6
  let v16 : BitVec 32 := Scalar.extui v15
  let c0_i32_7 : BitVec 32 := 0#32
  let v17 : BitVec 1 := Scalar.cmpi .ne v16 c0_i32_7
  v17

def k0_off1 (i : grid0.Coords) : Fin 2 → Nat :=
  let arg1 : BitVec 32 := BitVec.ofNat 32 (i 1).val
  let c400_i32 : BitVec 32 := 400#32
  let v40 : BitVec 32 := Scalar.muli arg1 c400_i32
  let v41 : Index := Scalar.indexCast v40
  let c0_18 : Index := 0#32
  ![v41.toNat, 0]
def k0_cond5 (i : grid0.Coords) : BitVec 1 :=
  let arg0 : BitVec 32 := BitVec.ofNat 32 (i 0).val
  let c1_i32_8 : BitVec 32 := 1#32
  let v18 : BitVec 1 := Scalar.cmpi .eq arg0 c1_i32_8
  let arg1 : BitVec 32 := BitVec.ofNat 32 (i 1).val
  let c22_i32 : BitVec 32 := 22#32
  let v19 : BitVec 1 := Scalar.cmpi .slt arg1 c22_i32
  let c24_i32 : BitVec 32 := 24#32
  let v20 : BitVec 1 := Scalar.cmpi .eq arg1 c24_i32
  let v21 : BitVec 1 := Scalar.ori v19 v20
  let v22 : BitVec 1 := Scalar.andi v18 v21
  let v23 : BitVec 32 := Scalar.extui v22
  let c0_i32_9 : BitVec 32 := 0#32
  let v24 : BitVec 1 := Scalar.cmpi .ne v23 c0_i32_9
  v24

def k0_cond6 (i : grid0.Coords) : BitVec 1 :=
  let arg0 : BitVec 32 := BitVec.ofNat 32 (i 0).val
  let c1_i32_10 : BitVec 32 := 1#32
  let v25 : BitVec 1 := Scalar.cmpi .eq arg0 c1_i32_10
  let arg1 : BitVec 32 := BitVec.ofNat 32 (i 1).val
  let c22_i32_11 : BitVec 32 := 22#32
  let v26 : BitVec 1 := Scalar.cmpi .eq arg1 c22_i32_11
  let v27 : BitVec 1 := Scalar.andi v25 v26
  let v28 : BitVec 32 := Scalar.extui v27
  let c0_i32_12 : BitVec 32 := 0#32
  let v29 : BitVec 1 := Scalar.cmpi .ne v28 c0_i32_12
  v29

def k0_cond7 (i : grid0.Coords) : BitVec 1 :=
  let arg0 : BitVec 32 := BitVec.ofNat 32 (i 0).val
  let c1_i32_13 : BitVec 32 := 1#32
  let v30 : BitVec 1 := Scalar.cmpi .eq arg0 c1_i32_13
  let arg1 : BitVec 32 := BitVec.ofNat 32 (i 1).val
  let c23_i32 : BitVec 32 := 23#32
  let v31 : BitVec 1 := Scalar.cmpi .eq arg1 c23_i32
  let v32 : BitVec 1 := Scalar.andi v30 v31
  let v33 : BitVec 32 := Scalar.extui v32
  let c0_i32_14 : BitVec 32 := 0#32
  let v34 : BitVec 1 := Scalar.cmpi .ne v33 c0_i32_14
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.subi c24_i32 arg1
  let c0_i32 : BitVec 32 := 0#32
  let v1 : BitVec 1 := Scalar.cmpi .eq arg0 c0_i32
  let c3_i32 : BitVec 32 := 3#32
  let v2 : BitVec 1 := Scalar.cmpi .sge v0 c3_i32
  let c0_i32_0 : BitVec 32 := 0#32
  let v3 : BitVec 1 := Scalar.cmpi .eq v0 c0_i32_0
  let v4 : BitVec 1 := Scalar.ori v2 v3
  let c3_i32_1 : BitVec 32 := 3#32
  let v5 : BitVec 32 := Scalar.select v4 v0 c3_i32_1
  let v6 : BitVec 32 := Scalar.select v1 arg1 v5
  let c0_i32_2 : BitVec 32 := 0#32
  let c0_i32_3 : BitVec 32 := 0#32
  ![v6.toNat, c0_i32_2.toNat]

def cc0_transform_4 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c24_i32 : BitVec 32 := 24#32
  let v1 : BitVec 32 := Scalar.subi c24_i32 v0
  let c0_i32 : BitVec 32 := 0#32
  let c0_i32_0 : BitVec 32 := 0#32
  ![v1.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S128x64_S128x64_0_0 : ∀ a, (![0, 0] : Fin 2 → Nat) a + S128x64.size a ≤ S128x64.size a
  h_S128x64 : 0 < S128x64.numel
  inb_S64x64_S64x64_0_0 : ∀ a, (![0, 0] : Fin 2 → Nat) a + S64x64.size a ≤ S64x64.size a
  h_S64x64 : 0 < S64x64.numel
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  packedbf16_S400x10000_S400x10000_0_0 : (Rect.unit (s := S400x10000) ![0, 0] S400x10000.size inb_S400x10000_S400x10000_0_0).PackedRows (EltTy.packing .bf16)
  h_S400x64 : 0 < S400x64.numel
  shapeCasts_S400x64_S400x64 : S400x64.ShapeCasts S400x64
  inb_S400x64_S400x64_0_0 : ∀ a, (![0, 0] : Fin 2 → Nat) a + S400x64.size a ≤ S400x64.size a
  dot_S128x64_S64x64_S128x64_1_0_0_1_n_n_wf : DotDims.WF S128x64 S64x64 S128x64 [1] [0] [0] [1] [] []
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  hrank0 : 0 < grid0.rank
  k0_off1_inb : ∀ i : grid0.Coords, ∀ (k0_h4 : k0_cond4 i = 1#1), ∀ a, (k0_off1 i) a + S400x64.size a ≤ S10000x64.size a
  k0_off1_packedbf16 : ∀ i : grid0.Coords, ∀ (k0_h4 : k0_cond4 i = 1#1), (Rect.unit (s := S10000x64) (k0_off1 i) S400x64.size (k0_off1_inb i k0_h4)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x64.size a ≤ S10000x64.size a
  hwx0_4 : ∀ i : grid0.Coords, EltTy.bits .f32 = 32 ∨ (Rect.block (s := S10000x64) S400x64.size (cc0_transform_4 i) (hinb0_4 i)).WholeWords (EltTy.packing .f32)

variable [Facts₀]

def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond5 i == 1#1) && !(k0_cond6 i == 1#1) && !(k0_cond7 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64x64 : Shape := ⟨2, ![64, 64]⟩
abbrev S10000x64 : Shape := ⟨2, ![10000, 64]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x64, .f32⟩
  | .hbm, ⟨4, _⟩ => ⟨S10000x64, .f32⟩
  | .hbm, ⟨5, _⟩ => ⟨S10000x64, .f32⟩
  | .hbm, ⟨6, _⟩ => ⟨S10000x64, .f32⟩
  | .hbm, ⟨7, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.K.Conds.lean ====
/-
  The seven branch conditions of the fused kernel's body as propositions of the grid point, and what is decided
  once over the 50 points of the grid (2 phases of 25 row blocks of 400 rows): at which points each branch is
  taken, where the store into the second scratch lands, and where the output window is idle or written back.
  Point t = 25·p + i: phase p = 0 computes y = adj·x block by block (i = 0 also the prologue x = feat·(W1·W2),
  i = 1, 2 also cache the adjacency blocks 1, 2); phase p = 1 computes the output blocks from y.
-/
import proofs.«165262_g80814104642079_cont_9to1c4b_39_18_alg».proof.Proof.Gen.Kernel.Frame
import proofs.«165262_g80814104642079_cont_9to1c4b_39_18_alg».proof.Proof.Gen.Kernel.Skeleton

set_option maxRecDepth 16384

noncomputable section

namespace Cert.Kernel.Gen

open Idealize.ShloMosaic Idealize.ShloMosaic.TcCoe
open Idealize.SL Idealize.SL.Sem

variable {F : FTy → Type} [FloatOps F]

/-- The three inline branch conditions of the body, and the four named ones, as propositions of the point. -/
abbrev cnd1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev cnd2 (i : grid0.Coords) : Prop := (Scalar.cmpi .ne (Scalar.extui (Scalar.andi (Scalar.cmpi .eq (BitVec.ofNat 32 (i 0).val) 0#32) (Scalar.cmpi .eq (BitVec.ofNat 32 (i 1).val) 1#32))) 0#32) = 1#1
abbrev cnd3 (i : grid0.Coords) : Prop := (Scalar.cmpi .ne (Scalar.extui (Scalar.andi (Scalar.cmpi .eq (BitVec.ofNat 32 (i 0).val) 0#32) (Scalar.cmpi .eq (BitVec.ofNat 32 (i 1).val) 2#32))) 0#32) = 1#1
abbrev cnd4 (i : grid0.Coords) : Prop := k0_cond4 i = 1#1
abbrev cnd5 (i : grid0.Coords) : Prop := k0_cond5 i = 1#1
abbrev cnd6 (i : grid0.Coords) : Prop := k0_cond6 i = 1#1
abbrev cnd7 (i : grid0.Coords) : Prop := k0_cond7 i = 1#1

/-- The prologue runs at the first point only. -/
theorem hc1 : ∀ t : Fin cfg0.N, cnd1 (grid0.coords t) ↔ t.val = 0 :=
  (by decide +kernel : ∀ t : Fin grid0.N, cnd1 (grid0.coords t) ↔ t.val = 0)
/-- The first cache is filled at point 1, -/
theorem hc2 : ∀ t : Fin cfg0.N, cnd2 (grid0.coords t) ↔ t.val = 1 :=
  (by decide +kernel : ∀ t : Fin grid0.N, cnd2 (grid0.coords t) ↔ t.val = 1)
/-- the second at point 2. -/
theorem hc3 : ∀ t : Fin cfg0.N, cnd3 (grid0.coords t) ↔ t.val = 2 :=
  (by decide +kernel : ∀ t : Fin grid0.N, cnd3 (grid0.coords t) ↔ t.val = 2)
/-- The first pass is phase 0: points 0 … 24. -/
theorem hc4 : ∀ t : Fin cfg0.N, cnd4 (grid0.coords t) ↔ t.val < 25 :=
  (by decide +kernel : ∀ t : Fin grid0.N, cnd4 (grid0.coords t) ↔ t.val < 25)
/-- The second pass reads the streamed adjacency block at points 25 … 46 and 49, -/
theorem hc5 : ∀ t : Fin cfg0.N, cnd5 (grid0.coords t) ↔ ((25 ≤ t.val ∧ t.val < 47) ∨ t.val = 49) :=
  (by decide +kernel : ∀ t : Fin grid0.N, cnd5 (grid0.coords t) ↔ ((25 ≤ t.val ∧ t.val < 47) ∨ t.val = 49))
/-- the second cache at point 47, -/
theorem hc6 : ∀ t : Fin cfg0.N, cnd6 (grid0.coords t) ↔ t.val = 47 :=
  (by decide +kernel : ∀ t : Fin grid0.N, cnd6 (grid0.coords t) ↔ t.val = 47)
/-- the first cache at point 48. -/
theorem hc7 : ∀ t : Fin cfg0.N, cnd7 (grid0.coords t) ↔ t.val = 48 :=
  (by decide +kernel : ∀ t : Fin grid0.N, cnd7 (grid0.coords t) ↔ t.val = 48)

/-- In phase 0 the rows stored into the second scratch at point t start at row 400·t. -/
theorem off1_closed : ∀ t : Fin cfg0.N, t.val < 25 → k0_off1 (grid0.coords t) = ![400 * t.val, 0] :=
  (by decide +kernel : ∀ t : Fin grid0.N, t.val < 25 → k0_off1 (grid0.coords t) = ![400 * t.val, 0])

/-- The inputs are never idle. -/
theorem live_in : ∀ (w : Fin cfg0.W), w.val < 4 → ∀ t : Fin cfg0.N, cfg0.idle w (grid0.coords t) = false := by decide +kernel
/-- The output window is idle through phase 0 (the body stores nothing into it there) -/
theorem idle_out : ∀ t : Fin cfg0.N, t.val < 25 → cfg0.idle 4 (grid0.coords t) = true := by decide +kernel
/-- and not written back there; -/
theorem noflush_out : ∀ t : Fin cfg0.N, t.val < 25 → (cfg0.win 4).flush t = false := by decide +kernel
/-- in phase 1 it is live. -/
theorem live_out : ∀ t : Fin cfg0.N, 25 ≤ t.val → cfg0.idle 4 (grid0.coords t) = false := by decide +kernel

end Cert.Kernel.Gen

end
-- ==== Proof.LibStoreRead.lean ====
/-
  Reading a buffer back after ONE store, without naming the view or what the buffer held before where that does
  not matter: a load of a whole buffer through the rectangle at zero offsets reads its contents; one store through
  that rectangle leaves exactly its payload; one store through any rectangle leaves its payload on the rectangle
  and the old contents everywhere else (`RowsPut`, the relation between the contents before and after).
-/
import Idealize.ShloMosaic.Lib.Pipeline.FrameBody
import Idealize.ShloMosaic.Lib.Pipeline.Value
import Idealize.ShloMosaic.Lib.Writes

namespace Idealize.ShloMosaic

/-- What one store of payload `w` through rectangle `r` does to contents `ys`, as a relation to the contents
    `ys'` after it: the rectangle's entries hold the payload, every other entry is kept. -/
def RowsPut {S : Shape} {e : EltTy} {Val : EltTy → Type} (r : Rect S) (w : r.shape.Idx → Val e)
    (ys ys' : S.Idx → Val e) : Prop :=
  (∀ x, ys' (r.emb x) = w x) ∧ (∀ y, y ∉ r.set → ys' y = ys y)

namespace View

variable {sig : RefSig} {κ : Kind} {sp : Space} {S : Shape} {e : EltTy} {Val : EltTy → Type}

/-- One store through a rectangle: the contents read afterwards are `RowsPut` of those read before. -/
theorem rowsPut_of_store (v : View sig κ sp S e) (f : v.ty.Contents Val) (r : Rect S) (w : r.shape.Idx → Val e) :
    RowsPut r w (v.read Val f) (v.read Val (v.writes Val f [(⟨r, w⟩ : Piece Val S e)])) :=
  ⟨fun x => read_writes_cons_emb v f r w [] x,
   fun y hy => read_writes_apply_of_forall_not_mem v f y [(⟨r, w⟩ : Piece Val S e)] (fun p hp => by
     rw [List.mem_singleton] at hp; subst hp; exact hy)⟩

/-- One store through the whole-shape rectangle at zero offsets leaves its payload, whatever was there. -/
theorem read_store_whole [∀ e, Nonempty (Val e)] (v : View sig κ sp S e) (f : v.ty.Contents Val)
    {off : Fin S.rank → Nat} (hz : off = fun _ => 0) (inb : ∀ a, off a + S.size a ≤ S.size a) (w : S.Idx → Val e) :
    v.read Val (v.writes Val f [(⟨Rect.unit off S.size inb, w⟩ : Piece Val S e)]) = w := by
  rw [View.read_writes_eq_canon v f _ (fun y => ⟨_, List.mem_singleton_self _, View.mem_set_unit_zero hz inb y⟩),
    View.canon_unit_zero hz]

end View

/-- A load of a whole buffer through the whole-shape rectangle at zero offsets reads the contents it is held at. -/
theorem Memref.IsWhole.readAt_whole {sig : RefSig} {κ : Kind} {sp : Space} {S : Shape} {e : EltTy} {Val : EltTy → Type}
    {m : Memref sig κ sp S e} (h : m.IsWhole) {off : Fin S.rank → Nat} (hz : off = fun _ => 0)
    (inb : ∀ a, off a + S.size a ≤ S.size a) (X : S.Idx → Val e) :
    View.readAt Val m.view (Rect.unit off S.size inb).toLoadRect (h.unread X) = X := by
  rw [View.readAt_eq_ld, h.read_unread, View.ld_unit_zero hz]

/-- The two-axis offsets `![0, 0]` are the zero offsets. -/
theorem zero_off2 : (![0, 0] : Fin 2 → Nat) = fun _ => 0 := by
  funext a; fin_cases a <;> rfl

end Idealize.ShloMosaic
-- ==== Proof.K.Runs.lean ====
/-
  The fused kernel's body run once per case of its seven branches (the seven kinds of grid point), on whole memrefs
  held at named contents. Every case hands all nine memrefs back: the three small inputs and the streamed adjacency
  block as found; the first scratch x at feat·(W1·W2) after the prologue; a band of 400 rows of the second scratch y
  at (adjacency block)·x after a first-pass point, its other rows kept; a cache at the adjacency block (format
  change only) after its point; the output block at (adjacency block or cache)·y after a second-pass point.
  The payload names are the generated skeleton's.
-/
import proofs.«165262_g80814104642079_cont_9to1c4b_39_18_alg».proof.Proof.Gen.Kernel.Frame
import proofs.«165262_g80814104642079_cont_9to1c4b_39_18_alg».proof.Proof.K.Conds
import proofs.«165262_g80814104642079_cont_9to1c4b_39_18_alg».proof.Proof.LibStoreRead
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of case A (point 0: the prologue and the first pass), on whole memrefs held at named contents: it runs to the end
    and hands every memref back, the ones it stored into at the stored payloads of the contents it loaded. -/
theorem runA (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x64 .bf16) (harg7 : arg7.IsWhole) (arg8 : Memref sig .tc .vmem S10000x64 .bf16) (harg8 : arg8.IsWhole) (arg9 : Memref sig .tc .vmem S400x10000 .bf16) (harg9 : arg9.IsWhole) (arg10 : Memref sig .tc .vmem S400x10000 .bf16) (harg10 : arg10.IsWhole)
    (h1 : cnd1 i) (h2 : ¬cnd2 i) (h3 : ¬cnd3 i) (h4 : cnd4 i) (h5 : ¬cnd5 i) (h6 : ¬cnd6 i) (h7 : ¬cnd7 i)
    (x0 : Vec F S10000x128 .f32) (x1 : Vec F S128x64 .f32) (x2 : Vec F S64x64 .f32) (x3 : Vec F S400x10000 .f32) (xo : Vec F S400x64 .f32)
    (xs : Vec F S10000x64 .bf16) (ys : Vec F S10000x64 .bf16) (a1 : Vec F S400x10000 .bf16) (a2 : Vec F S400x10000 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ owns (c : Thread nD τ) arg8 fullShare ys ∗ owns (c : Thread nD τ) arg9 fullShare a1 ∗ owns (c : Thread nD τ) arg10 fullShare a2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xo
            ∗ owns (c : Thread nD τ) arg7 fullShare (k0_pay2 x1 x2 x0)
            ∗ (∃ f, ⌜RowsPut (Rect.unit (s := S10000x64) (k0_off1 i) S400x64.size (Facts₀.k0_off1_inb i h4)) (k0_pay5 x3 (k0_pay2 x1 x2 x0)) ys (arg8.view.read (Elt F) f)⌝ ∗ arg8.view.loc (c : Thread nD τ) ↦[arg8.view.set]{fullShare} f)
            ∗ owns (c : Thread nD τ) arg9 fullShare a1
            ∗ owns (c : Thread nD τ) arg10 fullShare a2) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  sl_exec (disch := first | exact h1 | exact h2 | exact h3 | exact h4 | exact h5 | exact h6 | exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_run_names
    simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]
  isplitl [H6]
  · iexists _; isplitr
    swap; · iexact H6
    ipureintro
    sl_unfold_run_names
    simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]
    have h := View.rowsPut_of_store arg8.view (harg8.unread ys) (Rect.unit (s := S10000x64) (k0_off1 i) S400x64.size (Facts₀.k0_off1_inb i h4)) (k0_pay5 x3 (k0_pay2 x1 x2 x0))
    rw [hf6] at h
    exact h
  isplitl [H7]
  · iexists _; isplitr; · ipureintro; exact harg9.read_unread _
    iexact H7
  iexists _; isplitr; · ipureintro; exact harg10.read_unread _
  iexact H8

set_option maxHeartbeats 4000000 in
/-- The body at a point of case B (point 1: the first cache is filled, and the first pass), on whole memrefs held at named contents: it runs to the end
    and hands every memref back, the ones it stored into at the stored payloads of the contents it loaded. -/
theorem runB (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x64 .bf16) (harg7 : arg7.IsWhole) (arg8 : Memref sig .tc .vmem S10000x64 .bf16) (harg8 : arg8.IsWhole) (arg9 : Memref sig .tc .vmem S400x10000 .bf16) (harg9 : arg9.IsWhole) (arg10 : Memref sig .tc .vmem S400x10000 .bf16) (harg10 : arg10.IsWhole)
    (h1 : ¬cnd1 i) (h2 : cnd2 i) (h3 : ¬cnd3 i) (h4 : cnd4 i) (h5 : ¬cnd5 i) (h6 : ¬cnd6 i) (h7 : ¬cnd7 i)
    (x0 : Vec F S10000x128 .f32) (x1 : Vec F S128x64 .f32) (x2 : Vec F S64x64 .f32) (x3 : Vec F S400x10000 .f32) (xo : Vec F S400x64 .f32)
    (xs : Vec F S10000x64 .bf16) (ys : Vec F S10000x64 .bf16) (a1 : Vec F S400x10000 .bf16) (a2 : Vec F S400x10000 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ owns (c : Thread nD τ) arg8 fullShare ys ∗ owns (c : Thread nD τ) arg9 fullShare a1 ∗ owns (c : Thread nD τ) arg10 fullShare a2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xo
            ∗ owns (c : Thread nD τ) arg7 fullShare xs
            ∗ (∃ f, ⌜RowsPut (Rect.unit (s := S10000x64) (k0_off1 i) S400x64.size (Facts₀.k0_off1_inb i h4)) (k0_pay5 x3 xs) ys (arg8.view.read (Elt F) f)⌝ ∗ arg8.view.loc (c : Thread nD τ) ↦[arg8.view.set]{fullShare} f)
            ∗ owns (c : Thread nD τ) arg9 fullShare (k0_pay3 x3)
            ∗ owns (c : Thread nD τ) arg10 fullShare a2) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  sl_exec (disch := first | exact h1 | exact h2 | exact h3 | exact h4 | exact h5 | exact h6 | exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_run_names
    simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]
    have h := View.rowsPut_of_store arg8.view (harg8.unread ys) (Rect.unit (s := S10000x64) (k0_off1 i) S400x64.size (Facts₀.k0_off1_inb i h4)) (k0_pay5 x3 xs)
    rw [hf6] at h
    exact h
  isplitl [H7]
  · iexists _; isplitr
    swap; · iexact H7
    ipureintro
    sl_unfold_run_names
    simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]
  iexists _; isplitr; · ipureintro; exact harg10.read_unread _
  iexact H8

set_option maxHeartbeats 4000000 in
/-- The body at a point of case C (point 2: the second cache is filled, and the first pass), on whole memrefs held at named contents: it runs to the end
    and hands every memref back, the ones it stored into at the stored payloads of the contents it loaded. -/
theorem runC (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x64 .bf16) (harg7 : arg7.IsWhole) (arg8 : Memref sig .tc .vmem S10000x64 .bf16) (harg8 : arg8.IsWhole) (arg9 : Memref sig .tc .vmem S400x10000 .bf16) (harg9 : arg9.IsWhole) (arg10 : Memref sig .tc .vmem S400x10000 .bf16) (harg10 : arg10.IsWhole)
    (h1 : ¬cnd1 i) (h2 : ¬cnd2 i) (h3 : cnd3 i) (h4 : cnd4 i) (h5 : ¬cnd5 i) (h6 : ¬cnd6 i) (h7 : ¬cnd7 i)
    (x0 : Vec F S10000x128 .f32) (x1 : Vec F S128x64 .f32) (x2 : Vec F S64x64 .f32) (x3 : Vec F S400x10000 .f32) (xo : Vec F S400x64 .f32)
    (xs : Vec F S10000x64 .bf16) (ys : Vec F S10000x64 .bf16) (a1 : Vec F S400x10000 .bf16) (a2 : Vec F S400x10000 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ owns (c : Thread nD τ) arg8 fullShare ys ∗ owns (c : Thread nD τ) arg9 fullShare a1 ∗ owns (c : Thread nD τ) arg10 fullShare a2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xo
            ∗ owns (c : Thread nD τ) arg7 fullShare xs
            ∗ (∃ f, ⌜RowsPut (Rect.unit (s := S10000x64) (k0_off1 i) S400x64.size (Facts₀.k0_off1_inb i h4)) (k0_pay5 x3 xs) ys (arg8.view.read (Elt F) f)⌝ ∗ arg8.view.loc (c : Thread nD τ) ↦[arg8.view.set]{fullShare} f)
            ∗ owns (c : Thread nD τ) arg9 fullShare a1
            ∗ owns (c : Thread nD τ) arg10 fullShare (k0_pay4 x3)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  sl_exec (disch := first | exact h1 | exact h2 | exact h3 | exact h4 | exact h5 | exact h6 | exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_run_names
    simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]
    have h := View.rowsPut_of_store arg8.view (harg8.unread ys) (Rect.unit (s := S10000x64) (k0_off1 i) S400x64.size (Facts₀.k0_off1_inb i h4)) (k0_pay5 x3 xs)
    rw [hf6] at h
    exact h
  isplitl [H7]
  · iexists _; isplitr; · ipureintro; exact harg9.read_unread _
    iexact H7
  iexists _; isplitr
  swap; · iexact H8
  ipureintro
  sl_unfold_run_names
  simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]

set_option maxHeartbeats 4000000 in
/-- The body at a point of case D (points 3 … 24: the first pass alone), on whole memrefs held at named contents: it runs to the end
    and hands every memref back, the ones it stored into at the stored payloads of the contents it loaded. -/
theorem runD (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x64 .bf16) (harg7 : arg7.IsWhole) (arg8 : Memref sig .tc .vmem S10000x64 .bf16) (harg8 : arg8.IsWhole) (arg9 : Memref sig .tc .vmem S400x10000 .bf16) (harg9 : arg9.IsWhole) (arg10 : Memref sig .tc .vmem S400x10000 .bf16) (harg10 : arg10.IsWhole)
    (h1 : ¬cnd1 i) (h2 : ¬cnd2 i) (h3 : ¬cnd3 i) (h4 : cnd4 i) (h5 : ¬cnd5 i) (h6 : ¬cnd6 i) (h7 : ¬cnd7 i)
    (x0 : Vec F S10000x128 .f32) (x1 : Vec F S128x64 .f32) (x2 : Vec F S64x64 .f32) (x3 : Vec F S400x10000 .f32) (xo : Vec F S400x64 .f32)
    (xs : Vec F S10000x64 .bf16) (ys : Vec F S10000x64 .bf16) (a1 : Vec F S400x10000 .bf16) (a2 : Vec F S400x10000 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ owns (c : Thread nD τ) arg8 fullShare ys ∗ owns (c : Thread nD τ) arg9 fullShare a1 ∗ owns (c : Thread nD τ) arg10 fullShare a2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xo
            ∗ owns (c : Thread nD τ) arg7 fullShare xs
            ∗ (∃ f, ⌜RowsPut (Rect.unit (s := S10000x64) (k0_off1 i) S400x64.size (Facts₀.k0_off1_inb i h4)) (k0_pay5 x3 xs) ys (arg8.view.read (Elt F) f)⌝ ∗ arg8.view.loc (c : Thread nD τ) ↦[arg8.view.set]{fullShare} f)
            ∗ owns (c : Thread nD τ) arg9 fullShare a1
            ∗ owns (c : Thread nD τ) arg10 fullShare a2) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  sl_exec (disch := first | exact h1 | exact h2 | exact h3 | exact h4 | exact h5 | exact h6 | exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_run_names
    simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]
    have h := View.rowsPut_of_store arg8.view (harg8.unread ys) (Rect.unit (s := S10000x64) (k0_off1 i) S400x64.size (Facts₀.k0_off1_inb i h4)) (k0_pay5 x3 xs)
    rw [hf6] at h
    exact h
  isplitl [H7]
  · iexists _; isplitr; · ipureintro; exact harg9.read_unread _
    iexact H7
  iexists _; isplitr; · ipureintro; exact harg10.read_unread _
  iexact H8

set_option maxHeartbeats 4000000 in
/-- The body at a point of case E (points 25 … 46 and 49: the second pass on the streamed adjacency block), on whole memrefs held at named contents: it runs to the end
    and hands every memref back, the ones it stored into at the stored payloads of the contents it loaded. -/
theorem runE (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x64 .bf16) (harg7 : arg7.IsWhole) (arg8 : Memref sig .tc .vmem S10000x64 .bf16) (harg8 : arg8.IsWhole) (arg9 : Memref sig .tc .vmem S400x10000 .bf16) (harg9 : arg9.IsWhole) (arg10 : Memref sig .tc .vmem S400x10000 .bf16) (harg10 : arg10.IsWhole)
    (h1 : ¬cnd1 i) (h2 : ¬cnd2 i) (h3 : ¬cnd3 i) (h4 : ¬cnd4 i) (h5 : cnd5 i) (h6 : ¬cnd6 i) (h7 : ¬cnd7 i)
    (x0 : Vec F S10000x128 .f32) (x1 : Vec F S128x64 .f32) (x2 : Vec F S64x64 .f32) (x3 : Vec F S400x10000 .f32) (xo : Vec F S400x64 .f32)
    (xs : Vec F S10000x64 .bf16) (ys : Vec F S10000x64 .bf16) (a1 : Vec F S400x10000 .bf16) (a2 : Vec F S400x10000 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ owns (c : Thread nD τ) arg8 fullShare ys ∗ owns (c : Thread nD τ) arg9 fullShare a1 ∗ owns (c : Thread nD τ) arg10 fullShare a2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (k0_pay6 x3 ys)
            ∗ owns (c : Thread nD τ) arg7 fullShare xs
            ∗ owns (c : Thread nD τ) arg8 fullShare ys
            ∗ owns (c : Thread nD τ) arg9 fullShare a1
            ∗ owns (c : Thread nD τ) arg10 fullShare a2) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  sl_exec (disch := first | exact h1 | exact h2 | exact h3 | exact h4 | exact h5 | exact h6 | exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr; · ipureintro; exact harg10.read_unread _
  iexact H8

set_option maxHeartbeats 4000000 in
/-- The body at a point of case F (point 47: the second pass on the second cache), on whole memrefs held at named contents: it runs to the end
    and hands every memref back, the ones it stored into at the stored payloads of the contents it loaded. -/
theorem runF (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x64 .bf16) (harg7 : arg7.IsWhole) (arg8 : Memref sig .tc .vmem S10000x64 .bf16) (harg8 : arg8.IsWhole) (arg9 : Memref sig .tc .vmem S400x10000 .bf16) (harg9 : arg9.IsWhole) (arg10 : Memref sig .tc .vmem S400x10000 .bf16) (harg10 : arg10.IsWhole)
    (h1 : ¬cnd1 i) (h2 : ¬cnd2 i) (h3 : ¬cnd3 i) (h4 : ¬cnd4 i) (h5 : ¬cnd5 i) (h6 : cnd6 i) (h7 : ¬cnd7 i)
    (x0 : Vec F S10000x128 .f32) (x1 : Vec F S128x64 .f32) (x2 : Vec F S64x64 .f32) (x3 : Vec F S400x10000 .f32) (xo : Vec F S400x64 .f32)
    (xs : Vec F S10000x64 .bf16) (ys : Vec F S10000x64 .bf16) (a1 : Vec F S400x10000 .bf16) (a2 : Vec F S400x10000 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ owns (c : Thread nD τ) arg8 fullShare ys ∗ owns (c : Thread nD τ) arg9 fullShare a1 ∗ owns (c : Thread nD τ) arg10 fullShare a2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (k0_pay7 a2 ys)
            ∗ owns (c : Thread nD τ) arg7 fullShare xs
            ∗ owns (c : Thread nD τ) arg8 fullShare ys
            ∗ owns (c : Thread nD τ) arg9 fullShare a1
            ∗ owns (c : Thread nD τ) arg10 fullShare a2) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  sl_exec (disch := first | exact h1 | exact h2 | exact h3 | exact h4 | exact h5 | exact h6 | exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr; · ipureintro; exact harg10.read_unread _
  iexact H8

set_option maxHeartbeats 4000000 in
/-- The body at a point of case G (point 48: the second pass on the first cache), on whole memrefs held at named contents: it runs to the end
    and hands every memref back, the ones it stored into at the stored payloads of the contents it loaded. -/
theorem runG (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x64 .bf16) (harg7 : arg7.IsWhole) (arg8 : Memref sig .tc .vmem S10000x64 .bf16) (harg8 : arg8.IsWhole) (arg9 : Memref sig .tc .vmem S400x10000 .bf16) (harg9 : arg9.IsWhole) (arg10 : Memref sig .tc .vmem S400x10000 .bf16) (harg10 : arg10.IsWhole)
    (h1 : ¬cnd1 i) (h2 : ¬cnd2 i) (h3 : ¬cnd3 i) (h4 : ¬cnd4 i) (h5 : ¬cnd5 i) (h6 : ¬cnd6 i) (h7 : cnd7 i)
    (x0 : Vec F S10000x128 .f32) (x1 : Vec F S128x64 .f32) (x2 : Vec F S64x64 .f32) (x3 : Vec F S400x10000 .f32) (xo : Vec F S400x64 .f32)
    (xs : Vec F S10000x64 .bf16) (ys : Vec F S10000x64 .bf16) (a1 : Vec F S400x10000 .bf16) (a2 : Vec F S400x10000 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ owns (c : Thread nD τ) arg8 fullShare ys ∗ owns (c : Thread nD τ) arg9 fullShare a1 ∗ owns (c : Thread nD τ) arg10 fullShare a2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (k0_pay1 a1 ys)
            ∗ owns (c : Thread nD τ) arg7 fullShare xs
            ∗ owns (c : Thread nD τ) arg8 fullShare ys
            ∗ owns (c : Thread nD τ) arg9 fullShare a1
            ∗ owns (c : Thread nD τ) arg10 fullShare a2) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  sl_exec (disch := first | exact h1 | exact h2 | exact h3 | exact h4 | exact h5 | exact h6 | exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr; · ipureintro; exact harg10.read_unread _
  iexact H8

end Cert.Kernel.Gen

end
-- ==== Proof.K.Data.lean ====
/-
  What the fused kernel carries from point to point, as pure mathematics over the payload names of the generated
  skeleton (so the same text serves the word-level and the exact reading).
  With feat, W1, W2 the whole small inputs and A_j the j-th block of 400 rows of the adjacency matrix:
    x    = feat·(W1·W2)                       stored whole into the first scratch at point 0;
    y    = rows [400 t, 400 t + 400) hold A_t·x, stored into the second scratch at point t < 25;
    c1, c2 = A_1, A_2 (a change of format)     stored into the caches at points 1 and 2;
    out at point t ≥ 25 = A·y for the streamed block A, c2·y at point 47, c1·y at point 48.
  `Inv n` says what the four scratch buffers hold after point n; the step lemmas say that each kind of point
  re-establishes it, and that once phase 0 is over the second scratch is exactly `Yfull`.
-/
import proofs.«165262_g80814104642079_cont_9to1c4b_39_18_alg».proof.Proof.K.Conds
import proofs.«165262_g80814104642079_cont_9to1c4b_39_18_alg».proof.Proof.LibStoreRead
import Idealize.ShloMosaic.Lib.WritesUnit

set_option maxRecDepth 16384

noncomputable section

namespace Cert.Kernel.Gen

open Idealize.ShloMosaic Idealize.ShloMosaic.TcCoe
open Idealize.SL Idealize.SL.Sem

variable {F : FTy → Type} [FloatOps F]

variable (m : (ℓ : Loc nD τ sig) → Buf (Elt F) ℓ)

/-- Point `n` of the 50-point grid. -/
def pt (n : ℕ) (h : n < 50) : Fin cfg0.N := ⟨n, lt_of_lt_of_eq h N_0.symm⟩

theorem val_lt (t : Fin cfg0.N) : t.val < 50 := lt_of_lt_of_eq t.isLt N_0

/-- The band of the second scratch stored at a first-pass point: 400 rows from row 400·t. -/
abbrev rectY (t : Fin cfg0.N) (h4 : cnd4 (grid0.coords t)) : Rect S10000x64 :=
  Rect.unit (s := S10000x64) (k0_off1 (grid0.coords t)) S400x64.size (Facts₀.k0_off1_inb (grid0.coords t) h4)

/-- x = feat·(W1·W2), from the small inputs' blocks at point 0. -/
def Xv (c : Dev nD) : Vec F S10000x64 .bf16 :=
  k0_pay2 (iblk m c 1 (pt 0 (by omega))) (iblk m c 2 (pt 0 (by omega))) (iblk m c 0 (pt 0 (by omega)))
/-- The band of y stored at point t: (adjacency block at t)·x. -/
def Yrow (c : Dev nD) (t : Fin cfg0.N) : Vec F S400x64 .bf16 := k0_pay5 (iblk m c 3 t) (Xv m c)
/-- The first cache: the adjacency block at point 1. -/
def A1v (c : Dev nD) : Vec F S400x10000 .bf16 := k0_pay3 (iblk m c 3 (pt 1 (by omega)))
/-- The second cache: the adjacency block at point 2. -/
def A2v (c : Dev nD) : Vec F S400x10000 .bf16 := k0_pay4 (iblk m c 3 (pt 2 (by omega)))

theorem row_lt (y : S10000x64.Idx) : (y 0).val < 10000 := (y 0).isLt

/-- Where an entry of y sits within its band. -/
def bandPos (y : S10000x64.Idx) : S400x64.Idx :=
  Rect.unitLocal (s := S10000x64) (off := ![400 * ((y 0).val / 400), 0]) (size := S400x64.size) y
    (Rect.unit_rows_mem (d := ![10000, 64]) (size := S400x64.size) (o := 400 * ((y 0).val / 400)) (W := 400) y rfl rfl
      ⟨by omega, by omega⟩)

/-- y once phase 0 is over: entry (r, l) is entry (r mod 400, l) of the band stored at point r / 400. -/
def Yfull (c : Dev nD) : Vec F S10000x64 .bf16 := fun y =>
  Yrow m c (pt ((y 0).val / 400) (by have := row_lt y; omega)) (bandPos y)

/-- The output block the body stores at a second-pass point. -/
def OutAt (c : Dev nD) (t : Fin cfg0.N) : Vec F S400x64 .f32 :=
  if t.val = 47 then k0_pay7 (A2v m c) (Yfull m c)
  else if t.val = 48 then k0_pay1 (A1v m c) (Yfull m c)
  else k0_pay6 (iblk m c 3 t) (Yfull m c)

/-- What the scratch buffers hold after point `n`: x whole; y's bands of the first-pass points up to `n`; each
    cache from its point on. -/
def Inv (c : Dev nD) (n : ℕ) (x y : Vec F S10000x64 .bf16) (a1 a2 : Vec F S400x10000 .bf16) : Prop :=
  x = Xv m c
  ∧ (∀ (t' : Fin cfg0.N) (h4 : cnd4 (grid0.coords t')), t'.val ≤ n → ∀ xx, y ((rectY t' h4).emb xx) = Yrow m c t' xx)
  ∧ (1 ≤ n → a1 = A1v m c) ∧ (2 ≤ n → a2 = A2v m c)

/-- Row coordinate of an entry of the band stored at point t: 400·t + its row within the band. -/
theorem emb_row (t : Fin cfg0.N) (h4 : cnd4 (grid0.coords t)) (xx : (rectY t h4).shape.Idx) :
    (((rectY t h4).emb xx) 0).val = 400 * t.val + (xx 0).val := by
  have hlt := (hc4 t).mp h4
  rw [Rect.emb_apply]
  show k0_off1 (grid0.coords t) 0 + 1 * (xx 0).val = _
  rw [off1_closed t hlt]
  simp

theorem emb_col (t : Fin cfg0.N) (h4 : cnd4 (grid0.coords t)) (xx : (rectY t h4).shape.Idx) :
    (((rectY t h4).emb xx) 1).val = (xx 1).val := by
  have hlt := (hc4 t).mp h4
  rw [Rect.emb_apply]
  show k0_off1 (grid0.coords t) 1 + 1 * (xx 1).val = _
  rw [off1_closed t hlt]
  simp

/-- Bands of different first-pass points are disjoint. -/
theorem band_not_mem (t t' : Fin cfg0.N) (h4 : cnd4 (grid0.coords t)) (h4' : cnd4 (grid0.coords t')) (hne : t'.val ≠ t.val)
    (xx : (rectY t' h4').shape.Idx) : (rectY t' h4').emb xx ∉ (rectY t h4).set := by
  have hlt := (hc4 t).mp h4
  intro hmem
  rw [Rect.mem_set_unit] at hmem
  have h0 := hmem 0
  rw [emb_row t' h4' xx, off1_closed t hlt] at h0
  have hx : (xx 0).val < 400 := (xx 0).isLt
  have h0' : 400 * t.val ≤ 400 * t'.val + (xx 0).val ∧ 400 * t'.val + (xx 0).val < 400 * t.val + 400 := h0
  omega

/-- A first-pass point adds its band and keeps the earlier ones. -/
theorem rows_step (c : Dev nD) (t : Fin cfg0.N) (h4 : cnd4 (grid0.coords t)) (y y' : Vec F S10000x64 .bf16)
    (hprev : ∀ (t' : Fin cfg0.N) (h4' : cnd4 (grid0.coords t')), t'.val < t.val → ∀ xx, y ((rectY t' h4').emb xx) = Yrow m c t' xx)
    (hput : RowsPut (rectY t h4) (k0_pay5 (iblk m c 3 t) (Xv m c)) y y') :
    ∀ (t' : Fin cfg0.N) (h4' : cnd4 (grid0.coords t')), t'.val ≤ t.val → ∀ xx, y' ((rectY t' h4').emb xx) = Yrow m c t' xx := by
  intro t' h4' hle xx
  by_cases e : t'.val = t.val
  · obtain rfl : t' = t := Fin.ext e
    exact hput.1 xx
  · rw [hput.2 _ (band_not_mem t t' h4 h4' e xx)]
    exact hprev t' h4' (by omega) xx

/-- Once every first-pass point is done, y is `Yfull`. -/
theorem y_full (c : Dev nD) (n : ℕ) (hn : 24 ≤ n) (y : Vec F S10000x64 .bf16)
    (hrows : ∀ (t' : Fin cfg0.N) (h4 : cnd4 (grid0.coords t')), t'.val ≤ n → ∀ xx, y ((rectY t' h4).emb xx) = Yrow m c t' xx) :
    y = Yfull m c := by
  funext idx
  have hr := row_lt idx
  have hlt : (pt ((idx 0).val / 400) (by omega)).val < 25 := by show (idx 0).val / 400 < 25; omega
  have h4 : cnd4 (grid0.coords (pt ((idx 0).val / 400) (by omega))) := (hc4 _).mpr hlt
  have he : (rectY (pt ((idx 0).val / 400) (by omega)) h4).emb (bandPos idx) = idx := by
    funext a
    apply Fin.ext
    rw [Rect.emb_apply]
    show k0_off1 (grid0.coords (pt ((idx 0).val / 400) (by omega))) a + 1 * ((idx a).val - (![400 * ((idx 0).val / 400), 0] : Fin 2 → ℕ) a) = (idx a).val
    rw [off1_closed _ hlt]
    show (![400 * ((idx 0).val / 400), 0] : Fin 2 → ℕ) a + 1 * ((idx a).val - (![400 * ((idx 0).val / 400), 0] : Fin 2 → ℕ) a) = (idx a).val
    fin_cases a
    · show 400 * ((idx 0).val / 400) + 1 * ((idx 0).val - 400 * ((idx 0).val / 400)) = (idx 0).val
      omega
    · show 0 + 1 * ((idx 1).val - 0) = (idx 1).val
      omega
  have h := hrows _ h4 (by show (idx 0).val / 400 ≤ n; omega) (bandPos idx)
  rw [he] at h
  exact h

/-- Point 0 (prologue and first pass) establishes the invariant. -/
theorem inv_A (c : Dev nD) (t : Fin cfg0.N) (ht : t.val = 0) (h4 : cnd4 (grid0.coords t)) (y y' : Vec F S10000x64 .bf16)
    (a1 a2 : Vec F S400x10000 .bf16)
    (hput : RowsPut (rectY t h4) (k0_pay5 (iblk m c 3 t) (k0_pay2 (iblk m c 1 t) (iblk m c 2 t) (iblk m c 0 t))) y y') :
    Inv m c t.val (k0_pay2 (iblk m c 1 t) (iblk m c 2 t) (iblk m c 0 t)) y' a1 a2 := by
  obtain rfl : t = pt 0 (by decide) := Fin.ext ht
  refine ⟨rfl, rows_step m c _ h4 y y' (fun t' _ hlt => absurd hlt (Nat.not_lt_zero _)) hput, fun h => absurd h (by decide), fun h => absurd h (by decide)⟩

/-- Point 1 (the first cache and the first pass) keeps it. -/
theorem inv_B (c : Dev nD) (t : Fin cfg0.N) (ht : t.val = 1) (h4 : cnd4 (grid0.coords t)) (x y y' : Vec F S10000x64 .bf16)
    (a1 a2 : Vec F S400x10000 .bf16) (hI : Inv m c (t.val - 1) x y a1 a2)
    (hput : RowsPut (rectY t h4) (k0_pay5 (iblk m c 3 t) x) y y') :
    Inv m c t.val x y' (k0_pay3 (iblk m c 3 t)) a2 := by
  obtain ⟨hx, hrows, -, -⟩ := hI
  subst hx
  refine ⟨rfl, rows_step m c t h4 y y' (fun t' h4' hlt => hrows t' h4' (by omega)) hput, fun _ => ?_, fun h => absurd h (by omega)⟩
  obtain rfl : t = pt 1 (by decide) := Fin.ext ht
  rfl

/-- Point 2 (the second cache and the first pass) keeps it. -/
theorem inv_C (c : Dev nD) (t : Fin cfg0.N) (ht : t.val = 2) (h4 : cnd4 (grid0.coords t)) (x y y' : Vec F S10000x64 .bf16)
    (a1 a2 : Vec F S400x10000 .bf16) (hI : Inv m c (t.val - 1) x y a1 a2)
    (hput : RowsPut (rectY t h4) (k0_pay5 (iblk m c 3 t) x) y y') :
    Inv m c t.val x y' a1 (k0_pay4 (iblk m c 3 t)) := by
  obtain ⟨hx, hrows, h1, -⟩ := hI
  subst hx
  refine ⟨rfl, rows_step m c t h4 y y' (fun t' h4' hlt => hrows t' h4' (by omega)) hput, fun _ => h1 (by omega), fun _ => ?_⟩
  obtain rfl : t = pt 2 (by decide) := Fin.ext ht
  rfl

/-- A later first-pass point keeps it. -/
theorem inv_D (c : Dev nD) (t : Fin cfg0.N) (ht : 3 ≤ t.val) (h4 : cnd4 (grid0.coords t)) (x y y' : Vec F S10000x64 .bf16)
    (a1 a2 : Vec F S400x10000 .bf16) (hI : Inv m c (t.val - 1) x y a1 a2)
    (hput : RowsPut (rectY t h4) (k0_pay5 (iblk m c 3 t) x) y y') :
    Inv m c t.val x y' a1 a2 := by
  obtain ⟨hx, hrows, h1, h2⟩ := hI
  subst hx
  exact ⟨rfl, rows_step m c t h4 y y' (fun t' h4' hlt => hrows t' h4' (by omega)) hput, fun _ => h1 (by omega), fun _ => h2 (by omega)⟩

/-- A second-pass point stores into no scratch: the invariant goes on, -/
theorem inv_keep (c : Dev nD) (t : Fin cfg0.N) (ht : 25 ≤ t.val) (x y : Vec F S10000x64 .bf16)
    (a1 a2 : Vec F S400x10000 .bf16) (hI : Inv m c (t.val - 1) x y a1 a2) : Inv m c t.val x y a1 a2 := by
  obtain ⟨hx, hrows, h1, h2⟩ := hI
  exact ⟨hx, fun t' h4' _ xx => hrows t' h4' (by have := (hc4 t').mp h4'; omega) xx, fun _ => h1 (by omega), fun _ => h2 (by omega)⟩

/-- and there y is `Yfull` and both caches are filled. -/
theorem inv_phase1 (c : Dev nD) (t : Fin cfg0.N) (ht : 25 ≤ t.val) (x y : Vec F S10000x64 .bf16)
    (a1 a2 : Vec F S400x10000 .bf16) (hI : Inv m c (t.val - 1) x y a1 a2) :
    y = Yfull m c ∧ a1 = A1v m c ∧ a2 = A2v m c := by
  obtain ⟨-, hrows, h1, h2⟩ := hI
  exact ⟨y_full m c (t.val - 1) (by omega) y hrows, h1 (by omega), h2 (by omega)⟩

end Cert.Kernel.Gen

end
-- ==== Proof.K.Body.lean ====
/-
  The frame run of the fused kernel. The region's invariant before point n + 1 holds the four scratch buffers at
  SOME contents satisfying `Inv n` (before point 0 at anything); the body at each of the seven kinds of point takes
  the invariant and the windows' blocks, runs (the case's run), and gives the invariant of the next point back, by
  the step lemmas. The output window is idle and not written back through phase 0; in phase 1 its staging buffer is
  left at the point's output block `OutAt`. The launch theorem then runs the whole grid.
-/
import proofs.«165262_g80814104642079_cont_9to1c4b_39_18_alg».proof.Proof.Gen.Kernel.Frame
import proofs.«165262_g80814104642079_cont_9to1c4b_39_18_alg».proof.Proof.K.Runs
import proofs.«165262_g80814104642079_cont_9to1c4b_39_18_alg».proof.Proof.K.Data
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it, and its wholeness. -/
abbrev ms0 (t : Fin cfg0.N) : Memref sig .tc .vmem S10000x128 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S128x64 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S64x64 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S400x10000 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S400x64 .f32 := win0_4.stage (cfg0.slots t 4)
abbrev hs4 (t : Fin cfg0.N) : (ms4 t).IsWhole := Facts₀.hstage0_4 ((cfg0.slots t 4).cast Facts₀.nbuf0_4)
/-- The four scratch operands: whole scoped buffers passed beside the windows. -/
abbrev scX : Memref sig .tc .vmem S10000x64 .bf16 := Memref.whole cc0_scratch0
abbrev scY : Memref sig .tc .vmem S10000x64 .bf16 := Memref.whole cc0_scratch1
abbrev scA1 : Memref sig .tc .vmem S400x10000 .bf16 := Memref.whole cc0_scratch2
abbrev scA2 : Memref sig .tc .vmem S400x10000 .bf16 := Memref.whole cc0_scratch3

/-- The class's invariant with the scratch operands as memrefs owned at some contents. -/
theorem PhiA0_eq (c : Dev nD) :
    (Pipeline.ΦA spec0 c : sProp 𝕄)
      = iprop(iprop((∃ d, owns (c : Thread nD τ) scX fullShare d) ∗ (∃ d, owns (c : Thread nD τ) scY fullShare d) ∗ (∃ d, owns (c : Thread nD τ) scA1 fullShare d) ∗ (∃ d, owns (c : Thread nD τ) scA2 fullShare d)) ∗ (∃ r, prngReg c r)) := by
  unfold Pipeline.ΦA; rw [scopedRest0_eq]; simp only [scX, scY, scA1, scA2, owns_whole]; try rfl

/-- The region invariant before position `n`: before the first point the class's; afterwards the four scratch
    buffers at contents satisfying `Inv` of the point before, and the generator register at some state. -/
def PhiS (c : Dev nD) : ℕ → sProp 𝕄
  | 0 => Pipeline.ΦA spec0 c
  | n + 1 => iprop(∃ x : Vec F S10000x64 .bf16, ∃ y : Vec F S10000x64 .bf16, ∃ a1 : Vec F S400x10000 .bf16, ∃ a2 : Vec F S400x10000 .bf16, ⌜Inv m c n x y a1 a2⌝ ∗ owns (c : Thread nD τ) scX fullShare x ∗ owns (c : Thread nD τ) scY fullShare y ∗ owns (c : Thread nD τ) scA1 fullShare a1 ∗ owns (c : Thread nD τ) scA2 fullShare a2 ∗ (∃ r, prngReg c r))

theorem PhiS_succ (c : Dev nD) (n : ℕ) :
    PhiS m c (n + 1) = iprop(∃ x : Vec F S10000x64 .bf16, ∃ y : Vec F S10000x64 .bf16, ∃ a1 : Vec F S400x10000 .bf16, ∃ a2 : Vec F S400x10000 .bf16, ⌜Inv m c n x y a1 a2⌝ ∗ owns (c : Thread nD τ) scX fullShare x ∗ owns (c : Thread nD τ) scY fullShare y ∗ owns (c : Thread nD τ) scA1 fullShare a1 ∗ owns (c : Thread nD τ) scA2 fullShare a2 ∗ (∃ r, prngReg c r)) := rfl

/-- Either way the scratch buffers are there at some contents, which after a first point satisfy the invariant. -/
theorem PhiS_open (c : Dev nD) (n : ℕ) :
    PhiS m c n ⊢ iprop(∃ x : Vec F S10000x64 .bf16, ∃ y : Vec F S10000x64 .bf16, ∃ a1 : Vec F S400x10000 .bf16, ∃ a2 : Vec F S400x10000 .bf16, ⌜n ≠ 0 → Inv m c (n - 1) x y a1 a2⌝ ∗ owns (c : Thread nD τ) scX fullShare x ∗ owns (c : Thread nD τ) scY fullShare y ∗ owns (c : Thread nD τ) scA1 fullShare a1 ∗ owns (c : Thread nD τ) scA2 fullShare a2 ∗ (∃ r, prngReg c r)) := by
  cases n with
  | zero =>
    rewrite [show PhiS m c 0 = Pipeline.ΦA spec0 c from rfl, PhiA0_eq]
    iintro ⟨⟨⟨%x, Hx⟩, ⟨%y, Hy⟩, ⟨%a1, H1⟩, ⟨%a2, H2⟩⟩, Hg⟩
    iexists x; iexists y; iexists a1; iexists a2
    isplitr
    · ipureintro; intro h; exact absurd rfl h
    isplitl [Hx]; · iexact Hx
    isplitl [Hy]; · iexact Hy
    isplitl [H1]; · iexact H1
    isplitl [H2]; · iexact H2
    iexact Hg
  | succ n =>
    rewrite [PhiS_succ]
    iintro ⟨%x, %y, %a1, %a2, %hI, Hx, Hy, H1, H2, Hg⟩
    iexists x; iexists y; iexists a1; iexists a2
    isplitr
    · ipureintro; intro _; exact hI
    isplitl [Hx]; · iexact Hx
    isplitl [Hy]; · iexact Hy
    isplitl [H1]; · iexact H1
    isplitl [H2]; · iexact H2
    iexact Hg

/-! ## The pipeline's proof data -/

/-- The proof data of the pipeline on core `c`: the arrays as the region finds them; after the body each input's
    buffer at its block and the output's at the point's output block; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => OutAt m c t
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = OutAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: which of the seven kinds the point is of is read off its position; the kind's run applies
    to the inputs' blocks and the scratch contents the invariant hands over, and the step lemmas re-establish the
    invariant on what the run hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rewrite [show (dats m 0 c).owesAt () t.succ = (dats m 0 c).owesAt () t.castSucc from rfl]
  rewrite [show (dats m 0 c).Φ t.succ = PhiS m c (t.val + 1) from rfl]
  rewrite [show (dats m 0 c).leavesExact 0 t = owns (c : Thread nD τ) (ms0 t) fullShare ((dats m 0 c).after 0 t) from by
    unfold Dat.leavesExact; rw [live_in 0 (by decide) t], after0_0]
  rewrite [show (dats m 0 c).leavesExact 1 t = owns (c : Thread nD τ) (ms1 t) fullShare ((dats m 0 c).after 1 t) from by
    unfold Dat.leavesExact; rw [live_in 1 (by decide) t], after0_1]
  rewrite [show (dats m 0 c).leavesExact 2 t = owns (c : Thread nD τ) (ms2 t) fullShare ((dats m 0 c).after 2 t) from by
    unfold Dat.leavesExact; rw [live_in 2 (by decide) t], after0_2]
  rewrite [show (dats m 0 c).leavesExact 3 t = owns (c : Thread nD τ) (ms3 t) fullShare ((dats m 0 c).after 3 t) from by
    unfold Dat.leavesExact; rw [live_in 3 (by decide) t], after0_3]
  rewrite [PhiS_castSucc m c t]
  have hN := val_lt t
  by_cases hA : t.val = 0
  · -- point 0
    have h1 : cnd1 (grid0.coords t) := (hc1 t).mpr hA
    have h2 : ¬cnd2 (grid0.coords t) := fun h => by have := (hc2 t).mp h; omega
    have h3 : ¬cnd3 (grid0.coords t) := fun h => by have := (hc3 t).mp h; omega
    have h4 : cnd4 (grid0.coords t) := (hc4 t).mpr (by omega)
    have h5 : ¬cnd5 (grid0.coords t) := fun h => by have := (hc5 t).mp h; omega
    have h6 : ¬cnd6 (grid0.coords t) := fun h => by have := (hc6 t).mp h; omega
    have h7 : ¬cnd7 (grid0.coords t) := fun h => by have := (hc7 t).mp h; omega
    rewrite [Dat.leavesExact_idle (dats m 0 c) 4 t (idle_out t (by omega)) (noflush_out t (by omega))]
    iintro ⟨HΦ, Ho, ⟨%d0, H0⟩, ⟨%d1, H1⟩, ⟨%d2, H2⟩, ⟨%d3, H3⟩, ⟨%d4, H4⟩⟩
    ihave HΦ' := (PhiS_open m c t.val) $$ HΦ
    icases HΦ' with ⟨%x, %y, %a1, %a2, %hI, Hx, Hy, Ha1, Ha2, Hg⟩
    iapply (runA c (grid0.coords t) (ms0 t) (hs0 t) (ms1 t) (hs1 t) (ms2 t) (hs2 t) (ms3 t) (hs3 t) (ms4 t) (hs4 t) scX (Memref.isWhole_whole _) scY (Memref.isWhole_whole _) scA1 (Memref.isWhole_whole _) scA2 (Memref.isWhole_whole _) h1 h2 h3 h4 h5 h6 h7 (iblk m c 0 t) (iblk m c 1 t) (iblk m c 2 t) (iblk m c 3 t) _ x y a1 a2 Set.univ _)
    isplitl [H0]; · iexact H0
    isplitl [H1]; · iexact H1
    isplitl [H2]; · iexact H2
    isplitl [H3]; · iexact H3
    isplitl [H4]; · iexact H4
    isplitl [Hx]; · iexact Hx
    isplitl [Hy]; · iexact Hy
    isplitl [Ha1]; · iexact Ha1
    isplitl [Ha2]; · iexact Ha2
    iintro ⟨H0, H1, H2, H3, H4, Hx, ⟨%fy, %hput, Hy⟩, Ha1, Ha2⟩
    isplitl [Hx Hy Ha1 Ha2 Hg]
    · rewrite [PhiS_succ]
      iexists _; iexists _; iexists _; iexists _
      isplitr
      · ipureintro; exact inv_A m c t hA h4 y _ a1 a2 hput
      isplitl [Hx]; · iexact Hx
      isplitl [Hy]
      · unfold owns; iexists fy; isplitr; · ipureintro; rfl
        iexact Hy
      isplitl [Ha1]; · iexact Ha1
      isplitl [Ha2]; · iexact Ha2
      iexact Hg
    isplitl [Ho]; · iexact Ho
    isplitl [H0]; · iexact H0
    isplitl [H1]; · iexact H1
    isplitl [H2]; · iexact H2
    isplitl [H3]; · iexact H3
    iexists _; iexact H4
  by_cases hB : t.val = 1
  · -- point 1
    have h1 : ¬cnd1 (grid0.coords t) := fun h => by have := (hc1 t).mp h; omega
    have h2 : cnd2 (grid0.coords t) := (hc2 t).mpr hB
    have h3 : ¬cnd3 (grid0.coords t) := fun h => by have := (hc3 t).mp h; omega
    have h4 : cnd4 (grid0.coords t) := (hc4 t).mpr (by omega)
    have h5 : ¬cnd5 (grid0.coords t) := fun h => by have := (hc5 t).mp h; omega
    have h6 : ¬cnd6 (grid0.coords t) := fun h => by have := (hc6 t).mp h; omega
    have h7 : ¬cnd7 (grid0.coords t) := fun h => by have := (hc7 t).mp h; omega
    rewrite [Dat.leavesExact_idle (dats m 0 c) 4 t (idle_out t (by omega)) (noflush_out t (by omega))]
    iintro ⟨HΦ, Ho, ⟨%d0, H0⟩, ⟨%d1, H1⟩, ⟨%d2, H2⟩, ⟨%d3, H3⟩, ⟨%d4, H4⟩⟩
    ihave HΦ' := (PhiS_open m c t.val) $$ HΦ
    icases HΦ' with ⟨%x, %y, %a1, %a2, %hI, Hx, Hy, Ha1, Ha2, Hg⟩
    iapply (runB c (grid0.coords t) (ms0 t) (hs0 t) (ms1 t) (hs1 t) (ms2 t) (hs2 t) (ms3 t) (hs3 t) (ms4 t) (hs4 t) scX (Memref.isWhole_whole _) scY (Memref.isWhole_whole _) scA1 (Memref.isWhole_whole _) scA2 (Memref.isWhole_whole _) h1 h2 h3 h4 h5 h6 h7 (iblk m c 0 t) (iblk m c 1 t) (iblk m c 2 t) (iblk m c 3 t) _ x y a1 a2 Set.univ _)
    isplitl [H0]; · iexact H0
    isplitl [H1]; · iexact H1
    isplitl [H2]; · iexact H2
    isplitl [H3]; · iexact H3
    isplitl [H4]; · iexact H4
    isplitl [Hx]; · iexact Hx
    isplitl [Hy]; · iexact Hy
    isplitl [Ha1]; · iexact Ha1
    isplitl [Ha2]; · iexact Ha2
    iintro ⟨H0, H1, H2, H3, H4, Hx, ⟨%fy, %hput, Hy⟩, Ha1, Ha2⟩
    isplitl [Hx Hy Ha1 Ha2 Hg]
    · rewrite [PhiS_succ]
      iexists _; iexists _; iexists _; iexists _
      isplitr
      · ipureintro; exact inv_B m c t hB h4 x y _ a1 a2 (hI (by omega)) hput
      isplitl [Hx]; · iexact Hx
      isplitl [Hy]
      · unfold owns; iexists fy; isplitr; · ipureintro; rfl
        iexact Hy
      isplitl [Ha1]; · iexact Ha1
      isplitl [Ha2]; · iexact Ha2
      iexact Hg
    isplitl [Ho]; · iexact Ho
    isplitl [H0]; · iexact H0
    isplitl [H1]; · iexact H1
    isplitl [H2]; · iexact H2
    isplitl [H3]; · iexact H3
    iexists _; iexact H4
  by_cases hC : t.val = 2
  · -- point 2
    have h1 : ¬cnd1 (grid0.coords t) := fun h => by have := (hc1 t).mp h; omega
    have h2 : ¬cnd2 (grid0.coords t) := fun h => by have := (hc2 t).mp h; omega
    have h3 : cnd3 (grid0.coords t) := (hc3 t).mpr hC
    have h4 : cnd4 (grid0.coords t) := (hc4 t).mpr (by omega)
    have h5 : ¬cnd5 (grid0.coords t) := fun h => by have := (hc5 t).mp h; omega
    have h6 : ¬cnd6 (grid0.coords t) := fun h => by have := (hc6 t).mp h; omega
    have h7 : ¬cnd7 (grid0.coords t) := fun h => by have := (hc7 t).mp h; omega
    rewrite [Dat.leavesExact_idle (dats m 0 c) 4 t (idle_out t (by omega)) (noflush_out t (by omega))]
    iintro ⟨HΦ, Ho, ⟨%d0, H0⟩, ⟨%d1, H1⟩, ⟨%d2, H2⟩, ⟨%d3, H3⟩, ⟨%d4, H4⟩⟩
    ihave HΦ' := (PhiS_open m c t.val) $$ HΦ
    icases HΦ' with ⟨%x, %y, %a1, %a2, %hI, Hx, Hy, Ha1, Ha2, Hg⟩
    iapply (runC c (grid0.coords t) (ms0 t) (hs0 t) (ms1 t) (hs1 t) (ms2 t) (hs2 t) (ms3 t) (hs3 t) (ms4 t) (hs4 t) scX (Memref.isWhole_whole _) scY (Memref.isWhole_whole _) scA1 (Memref.isWhole_whole _) scA2 (Memref.isWhole_whole _) h1 h2 h3 h4 h5 h6 h7 (iblk m c 0 t) (iblk m c 1 t) (iblk m c 2 t) (iblk m c 3 t) _ x y a1 a2 Set.univ _)
    isplitl [H0]; · iexact H0
    isplitl [H1]; · iexact H1
    isplitl [H2]; · iexact H2
    isplitl [H3]; · iexact H3
    isplitl [H4]; · iexact H4
    isplitl [Hx]; · iexact Hx
    isplitl [Hy]; · iexact Hy
    isplitl [Ha1]; · iexact Ha1
    isplitl [Ha2]; · iexact Ha2
    iintro ⟨H0, H1, H2, H3, H4, Hx, ⟨%fy, %hput, Hy⟩, Ha1, Ha2⟩
    isplitl [Hx Hy Ha1 Ha2 Hg]
    · rewrite [PhiS_succ]
      iexists _; iexists _; iexists _; iexists _
      isplitr
      · ipureintro; exact inv_C m c t hC h4 x y _ a1 a2 (hI (by omega)) hput
      isplitl [Hx]; · iexact Hx
      isplitl [Hy]
      · unfold owns; iexists fy; isplitr; · ipureintro; rfl
        iexact Hy
      isplitl [Ha1]; · iexact Ha1
      isplitl [Ha2]; · iexact Ha2
      iexact Hg
    isplitl [Ho]; · iexact Ho
    isplitl [H0]; · iexact H0
    isplitl [H1]; · iexact H1
    isplitl [H2]; · iexact H2
    isplitl [H3]; · iexact H3
    iexists _; iexact H4
  by_cases hD : t.val < 25
  · -- points 3 … 24
    have h1 : ¬cnd1 (grid0.coords t) := fun h => by have := (hc1 t).mp h; omega
    have h2 : ¬cnd2 (grid0.coords t) := fun h => by have := (hc2 t).mp h; omega
    have h3 : ¬cnd3 (grid0.coords t) := fun h => by have := (hc3 t).mp h; omega
    have h4 : cnd4 (grid0.coords t) := (hc4 t).mpr hD
    have h5 : ¬cnd5 (grid0.coords t) := fun h => by have := (hc5 t).mp h; omega
    have h6 : ¬cnd6 (grid0.coords t) := fun h => by have := (hc6 t).mp h; omega
    have h7 : ¬cnd7 (grid0.coords t) := fun h => by have := (hc7 t).mp h; omega
    rewrite [Dat.leavesExact_idle (dats m 0 c) 4 t (idle_out t (by omega)) (noflush_out t (by omega))]
    iintro ⟨HΦ, Ho, ⟨%d0, H0⟩, ⟨%d1, H1⟩, ⟨%d2, H2⟩, ⟨%d3, H3⟩, ⟨%d4, H4⟩⟩
    ihave HΦ' := (PhiS_open m c t.val) $$ HΦ
    icases HΦ' with ⟨%x, %y, %a1, %a2, %hI, Hx, Hy, Ha1, Ha2, Hg⟩
    iapply (runD c (grid0.coords t) (ms0 t) (hs0 t) (ms1 t) (hs1 t) (ms2 t) (hs2 t) (ms3 t) (hs3 t) (ms4 t) (hs4 t) scX (Memref.isWhole_whole _) scY (Memref.isWhole_whole _) scA1 (Memref.isWhole_whole _) scA2 (Memref.isWhole_whole _) h1 h2 h3 h4 h5 h6 h7 (iblk m c 0 t) (iblk m c 1 t) (iblk m c 2 t) (iblk m c 3 t) _ x y a1 a2 Set.univ _)
    isplitl [H0]; · iexact H0
    isplitl [H1]; · iexact H1
    isplitl [H2]; · iexact H2
    isplitl [H3]; · iexact H3
    isplitl [H4]; · iexact H4
    isplitl [Hx]; · iexact Hx
    isplitl [Hy]; · iexact Hy
    isplitl [Ha1]; · iexact Ha1
    isplitl [Ha2]; · iexact Ha2
    iintro ⟨H0, H1, H2, H3, H4, Hx, ⟨%fy, %hput, Hy⟩, Ha1, Ha2⟩
    isplitl [Hx Hy Ha1 Ha2 Hg]
    · rewrite [PhiS_succ]
      iexists _; iexists _; iexists _; iexists _
      isplitr
      · ipureintro; exact inv_D m c t (by omega) h4 x y _ a1 a2 (hI (by omega)) hput
      isplitl [Hx]; · iexact Hx
      isplitl [Hy]
      · unfold owns; iexists fy; isplitr; · ipureintro; rfl
        iexact Hy
      isplitl [Ha1]; · iexact Ha1
      isplitl [Ha2]; · iexact Ha2
      iexact Hg
    isplitl [Ho]; · iexact Ho
    isplitl [H0]; · iexact H0
    isplitl [H1]; · iexact H1
    isplitl [H2]; · iexact H2
    isplitl [H3]; · iexact H3
    iexists _; iexact H4
  by_cases hF : t.val = 47
  · -- point 47
    have h1 : ¬cnd1 (grid0.coords t) := fun h => by have := (hc1 t).mp h; omega
    have h2 : ¬cnd2 (grid0.coords t) := fun h => by have := (hc2 t).mp h; omega
    have h3 : ¬cnd3 (grid0.coords t) := fun h => by have := (hc3 t).mp h; omega
    have h4 : ¬cnd4 (grid0.coords t) := fun h => by have := (hc4 t).mp h; omega
    have h5 : ¬cnd5 (grid0.coords t) := fun h => by have := (hc5 t).mp h; omega
    have h6 : cnd6 (grid0.coords t) := (hc6 t).mpr hF
    have h7 : ¬cnd7 (grid0.coords t) := fun h => by have := (hc7 t).mp h; omega
    rewrite [show (dats m 0 c).leavesExact 4 t = owns (c : Thread nD τ) (ms4 t) fullShare ((dats m 0 c).after 4 t) from by
      unfold Dat.leavesExact; rw [live_out t (by omega)], after0_4]
    rewrite [show OutAt m c t = k0_pay7 (A2v m c) (Yfull m c) from by unfold OutAt; rw [if_pos hF]]
    iintro ⟨HΦ, Ho, ⟨%d0, H0⟩, ⟨%d1, H1⟩, ⟨%d2, H2⟩, ⟨%d3, H3⟩, ⟨%d4, H4⟩⟩
    ihave HΦ' := (PhiS_open m c t.val) $$ HΦ
    icases HΦ' with ⟨%x, %y, %a1, %a2, %hI, Hx, Hy, Ha1, Ha2, Hg⟩
    obtain ⟨hy, ha1, ha2⟩ := inv_phase1 m c t (by omega) x y a1 a2 (hI (by omega))
    subst hy ha1 ha2
    iapply (runF c (grid0.coords t) (ms0 t) (hs0 t) (ms1 t) (hs1 t) (ms2 t) (hs2 t) (ms3 t) (hs3 t) (ms4 t) (hs4 t) scX (Memref.isWhole_whole _) scY (Memref.isWhole_whole _) scA1 (Memref.isWhole_whole _) scA2 (Memref.isWhole_whole _) h1 h2 h3 h4 h5 h6 h7 (iblk m c 0 t) (iblk m c 1 t) (iblk m c 2 t) (iblk m c 3 t) _ x (Yfull m c) (A1v m c) (A2v m c) Set.univ _)
    isplitl [H0]; · iexact H0
    isplitl [H1]; · iexact H1
    isplitl [H2]; · iexact H2
    isplitl [H3]; · iexact H3
    isplitl [H4]; · iexact H4
    isplitl [Hx]; · iexact Hx
    isplitl [Hy]; · iexact Hy
    isplitl [Ha1]; · iexact Ha1
    isplitl [Ha2]; · iexact Ha2
    iintro ⟨H0, H1, H2, H3, H4, Hx, Hy, Ha1, Ha2⟩
    isplitl [Hx Hy Ha1 Ha2 Hg]
    · rewrite [PhiS_succ]
      iexists _; iexists _; iexists _; iexists _
      isplitr
      · ipureintro; exact inv_keep m c t (by omega) _ _ _ _ (hI (by omega))
      isplitl [Hx]; · iexact Hx
      isplitl [Hy]; · iexact Hy
      isplitl [Ha1]; · iexact Ha1
      isplitl [Ha2]; · iexact Ha2
      iexact Hg
    isplitl [Ho]; · iexact Ho
    isplitl [H0]; · iexact H0
    isplitl [H1]; · iexact H1
    isplitl [H2]; · iexact H2
    isplitl [H3]; · iexact H3
    iexact H4
  by_cases hG : t.val = 48
  · -- point 48
    have h1 : ¬cnd1 (grid0.coords t) := fun h => by have := (hc1 t).mp h; omega
    have h2 : ¬cnd2 (grid0.coords t) := fun h => by have := (hc2 t).mp h; omega
    have h3 : ¬cnd3 (grid0.coords t) := fun h => by have := (hc3 t).mp h; omega
    have h4 : ¬cnd4 (grid0.coords t) := fun h => by have := (hc4 t).mp h; omega
    have h5 : ¬cnd5 (grid0.coords t) := fun h => by have := (hc5 t).mp h; omega
    have h6 : ¬cnd6 (grid0.coords t) := fun h => by have := (hc6 t).mp h; omega
    have h7 : cnd7 (grid0.coords t) := (hc7 t).mpr hG
    rewrite [show (dats m 0 c).leavesExact 4 t = owns (c : Thread nD τ) (ms4 t) fullShare ((dats m 0 c).after 4 t) from by
      unfold Dat.leavesExact; rw [live_out t (by omega)], after0_4]
    rewrite [show OutAt m c t = k0_pay1 (A1v m c) (Yfull m c) from by unfold OutAt; rw [if_neg hF, if_pos hG]]
    iintro ⟨HΦ, Ho, ⟨%d0, H0⟩, ⟨%d1, H1⟩, ⟨%d2, H2⟩, ⟨%d3, H3⟩, ⟨%d4, H4⟩⟩
    ihave HΦ' := (PhiS_open m c t.val) $$ HΦ
    icases HΦ' with ⟨%x, %y, %a1, %a2, %hI, Hx, Hy, Ha1, Ha2, Hg⟩
    obtain ⟨hy, ha1, ha2⟩ := inv_phase1 m c t (by omega) x y a1 a2 (hI (by omega))
    subst hy ha1 ha2
    iapply (runG c (grid0.coords t) (ms0 t) (hs0 t) (ms1 t) (hs1 t) (ms2 t) (hs2 t) (ms3 t) (hs3 t) (ms4 t) (hs4 t) scX (Memref.isWhole_whole _) scY (Memref.isWhole_whole _) scA1 (Memref.isWhole_whole _) scA2 (Memref.isWhole_whole _) h1 h2 h3 h4 h5 h6 h7 (iblk m c 0 t) (iblk m c 1 t) (iblk m c 2 t) (iblk m c 3 t) _ x (Yfull m c) (A1v m c) (A2v m c) Set.univ _)
    isplitl [H0]; · iexact H0
    isplitl [H1]; · iexact H1
    isplitl [H2]; · iexact H2
    isplitl [H3]; · iexact H3
    isplitl [H4]; · iexact H4
    isplitl [Hx]; · iexact Hx
    isplitl [Hy]; · iexact Hy
    isplitl [Ha1]; · iexact Ha1
    isplitl [Ha2]; · iexact Ha2
    iintro ⟨H0, H1, H2, H3, H4, Hx, Hy, Ha1, Ha2⟩
    isplitl [Hx Hy Ha1 Ha2 Hg]
    · rewrite [PhiS_succ]
      iexists _; iexists _; iexists _; iexists _
      isplitr
      · ipureintro; exact inv_keep m c t (by omega) _ _ _ _ (hI (by omega))
      isplitl [Hx]; · iexact Hx
      isplitl [Hy]; · iexact Hy
      isplitl [Ha1]; · iexact Ha1
      isplitl [Ha2]; · iexact Ha2
      iexact Hg
    isplitl [Ho]; · iexact Ho
    isplitl [H0]; · iexact H0
    isplitl [H1]; · iexact H1
    isplitl [H2]; · iexact H2
    isplitl [H3]; · iexact H3
    iexact H4
  · -- points 25 … 46 and 49
    have h1 : ¬cnd1 (grid0.coords t) := fun h => by have := (hc1 t).mp h; omega
    have h2 : ¬cnd2 (grid0.coords t) := fun h => by have := (hc2 t).mp h; omega
    have h3 : ¬cnd3 (grid0.coords t) := fun h => by have := (hc3 t).mp h; omega
    have h4 : ¬cnd4 (grid0.coords t) := fun h => by have := (hc4 t).mp h; omega
    have h5 : cnd5 (grid0.coords t) := (hc5 t).mpr (by omega)
    have h6 : ¬cnd6 (grid0.coords t) := fun h => by have := (hc6 t).mp h; omega
    have h7 : ¬cnd7 (grid0.coords t) := fun h => by have := (hc7 t).mp h; omega
    rewrite [show (dats m 0 c).leavesExact 4 t = owns (c : Thread nD τ) (ms4 t) fullShare ((dats m 0 c).after 4 t) from by
      unfold Dat.leavesExact; rw [live_out t (by omega)], after0_4]
    rewrite [show OutAt m c t = k0_pay6 (iblk m c 3 t) (Yfull m c) from by unfold OutAt; rw [if_neg hF, if_neg hG]]
    iintro ⟨HΦ, Ho, ⟨%d0, H0⟩, ⟨%d1, H1⟩, ⟨%d2, H2⟩, ⟨%d3, H3⟩, ⟨%d4, H4⟩⟩
    ihave HΦ' := (PhiS_open m c t.val) $$ HΦ
    icases HΦ' with ⟨%x, %y, %a1, %a2, %hI, Hx, Hy, Ha1, Ha2, Hg⟩
    obtain ⟨hy, ha1, ha2⟩ := inv_phase1 m c t (by omega) x y a1 a2 (hI (by omega))
    subst hy ha1 ha2
    iapply (runE c (grid0.coords t) (ms0 t) (hs0 t) (ms1 t) (hs1 t) (ms2 t) (hs2 t) (ms3 t) (hs3 t) (ms4 t) (hs4 t) scX (Memref.isWhole_whole _) scY (Memref.isWhole_whole _) scA1 (Memref.isWhole_whole _) scA2 (Memref.isWhole_whole _) h1 h2 h3 h4 h5 h6 h7 (iblk m c 0 t) (iblk m c 1 t) (iblk m c 2 t) (iblk m c 3 t) _ x (Yfull m c) (A1v m c) (A2v m c) Set.univ _)
    isplitl [H0]; · iexact H0
    isplitl [H1]; · iexact H1
    isplitl [H2]; · iexact H2
    isplitl [H3]; · iexact H3
    isplitl [H4]; · iexact H4
    isplitl [Hx]; · iexact Hx
    isplitl [Hy]; · iexact Hy
    isplitl [Ha1]; · iexact Ha1
    isplitl [Ha2]; · iexact Ha2
    iintro ⟨H0, H1, H2, H3, H4, Hx, Hy, Ha1, Ha2⟩
    isplitl [Hx Hy Ha1 Ha2 Hg]
    · rewrite [PhiS_succ]
      iexists _; iexists _; iexists _; iexists _
      isplitr
      · ipureintro; exact inv_keep m c t (by omega) _ _ _ _ (hI (by omega))
      isplitl [Hx]; · iexact Hx
      isplitl [Hy]; · iexact Hy
      isplitl [Ha1]; · iexact Ha1
      isplitl [Ha2]; · iexact Ha2
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rewrite [show (dats m 0 c).Φ 0 = Pipeline.ΦA spec0 c from rfl]
  exact Idealize.SL.BI.Entails.refl _

/-- After the last point the invariant gives the class's back: what the scratch buffers hold is forgotten. -/
theorem hout (c : Dev nD) : (dats m 0 c).Φ (Fin.last cfg0.N) ⊢ Pipeline.ΦA spec0 c := by
  rewrite [show (dats m 0 c).Φ (Fin.last cfg0.N) = PhiS m c (49 + 1) from rfl, PhiS_succ, PhiA0_eq]
  iintro ⟨%x, %y, %a1, %a2, -, Hx, Hy, H1, H2, Hg⟩
  isplitl [Hx Hy H1 H2]
  · isplitl [Hx]; · iexists _; iexact Hx
    isplitl [Hy]; · iexists _; iexact Hy
    isplitl [H1]; · iexists _; iexact H1
    iexists _; iexact H2
  iexact Hg

/-! ## The run and the frame -/

set_option backward.isDefEq.respectTransparency.types false in
/-- Every weakly fair execution of @main terminates, and every final state has every array of the pipeline at what the
    library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, nothing faults, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Gen

end
-- ==== Proof.KI.Conds.lean ====
/-
  The seven branch conditions of the fused kernel's body as propositions of the grid point, and what is decided
  once over the 50 points of the grid (2 phases of 25 row blocks of 400 rows): at which points each branch is
  taken, where the store into the second scratch lands, and where the output window is idle or written back.
  Point t = 25·p + i: phase p = 0 computes y = adj·x block by block (i = 0 also the prologue x = feat·(W1·W2),
  i = 1, 2 also cache the adjacency blocks 1, 2); phase p = 1 computes the output blocks from y.
-/
import proofs.«165262_g80814104642079_cont_9to1c4b_39_18_alg».proof.Proof.Gen.KernelIdeal.Frame
import proofs.«165262_g80814104642079_cont_9to1c4b_39_18_alg».proof.Proof.Gen.KernelIdeal.Skeleton

set_option maxRecDepth 16384

noncomputable section

namespace Cert.KernelIdeal.Gen

open Idealize.ShloMosaic Idealize.ShloMosaic.TcCoe
open Idealize.SL Idealize.SL.Sem

variable {F : FTy → Type} [FloatOps F]

/-- The three inline branch conditions of the body, and the four named ones, as propositions of the point. -/
abbrev cnd1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev cnd2 (i : grid0.Coords) : Prop := (Scalar.cmpi .ne (Scalar.extui (Scalar.andi (Scalar.cmpi .eq (BitVec.ofNat 32 (i 0).val) 0#32) (Scalar.cmpi .eq (BitVec.ofNat 32 (i 1).val) 1#32))) 0#32) = 1#1
abbrev cnd3 (i : grid0.Coords) : Prop := (Scalar.cmpi .ne (Scalar.extui (Scalar.andi (Scalar.cmpi .eq (BitVec.ofNat 32 (i 0).val) 0#32) (Scalar.cmpi .eq (BitVec.ofNat 32 (i 1).val) 2#32))) 0#32) = 1#1
abbrev cnd4 (i : grid0.Coords) : Prop := k0_cond4 i = 1#1
abbrev cnd5 (i : grid0.Coords) : Prop := k0_cond5 i = 1#1
abbrev cnd6 (i : grid0.Coords) : Prop := k0_cond6 i = 1#1
abbrev cnd7 (i : grid0.Coords) : Prop := k0_cond7 i = 1#1

/-- The prologue runs at the first point only. -/
theorem hc1 : ∀ t : Fin cfg0.N, cnd1 (grid0.coords t) ↔ t.val = 0 :=
  (by decide +kernel : ∀ t : Fin grid0.N, cnd1 (grid0.coords t) ↔ t.val = 0)
/-- The first cache is filled at point 1, -/
theorem hc2 : ∀ t : Fin cfg0.N, cnd2 (grid0.coords t) ↔ t.val = 1 :=
  (by decide +kernel : ∀ t : Fin grid0.N, cnd2 (grid0.coords t) ↔ t.val = 1)
/-- the second at point 2. -/
theorem hc3 : ∀ t : Fin cfg0.N, cnd3 (grid0.coords t) ↔ t.val = 2 :=
  (by decide +kernel : ∀ t : Fin grid0.N, cnd3 (grid0.coords t) ↔ t.val = 2)
/-- The first pass is phase 0: points 0 … 24. -/
theorem hc4 : ∀ t : Fin cfg0.N, cnd4 (grid0.coords t) ↔ t.val < 25 :=
  (by decide +kernel : ∀ t : Fin grid0.N, cnd4 (grid0.coords t) ↔ t.val < 25)
/-- The second pass reads the streamed adjacency block at points 25 … 46 and 49, -/
theorem hc5 : ∀ t : Fin cfg0.N, cnd5 (grid0.coords t) ↔ ((25 ≤ t.val ∧ t.val < 47) ∨ t.val = 49) :=
  (by decide +kernel : ∀ t : Fin grid0.N, cnd5 (grid0.coords t) ↔ ((25 ≤ t.val ∧ t.val < 47) ∨ t.val = 49))
/-- the second cache at point 47, -/
theorem hc6 : ∀ t : Fin cfg0.N, cnd6 (grid0.coords t) ↔ t.val = 47 :=
  (by decide +kernel : ∀ t : Fin grid0.N, cnd6 (grid0.coords t) ↔ t.val = 47)
/-- the first cache at point 48. -/
theorem hc7 : ∀ t : Fin cfg0.N, cnd7 (grid0.coords t) ↔ t.val = 48 :=
  (by decide +kernel : ∀ t : Fin grid0.N, cnd7 (grid0.coords t) ↔ t.val = 48)

/-- In phase 0 the rows stored into the second scratch at point t start at row 400·t. -/
theorem off1_closed : ∀ t : Fin cfg0.N, t.val < 25 → k0_off1 (grid0.coords t) = ![400 * t.val, 0] :=
  (by decide +kernel : ∀ t : Fin grid0.N, t.val < 25 → k0_off1 (grid0.coords t) = ![400 * t.val, 0])

/-- The inputs are never idle. -/
theorem live_in : ∀ (w : Fin cfg0.W), w.val < 4 → ∀ t : Fin cfg0.N, cfg0.idle w (grid0.coords t) = false := by decide +kernel
/-- The output window is idle through phase 0 (the body stores nothing into it there) -/
theorem idle_out : ∀ t : Fin cfg0.N, t.val < 25 → cfg0.idle 4 (grid0.coords t) = true := by decide +kernel
/-- and not written back there; -/
theorem noflush_out : ∀ t : Fin cfg0.N, t.val < 25 → (cfg0.win 4).flush t = false := by decide +kernel
/-- in phase 1 it is live. -/
theorem live_out : ∀ t : Fin cfg0.N, 25 ≤ t.val → cfg0.idle 4 (grid0.coords t) = false := by decide +kernel

end Cert.KernelIdeal.Gen

end
-- ==== Proof.KI.Runs.lean ====
/-
  The fused kernel's body run once per case of its seven branches (the seven kinds of grid point), on whole memrefs
  held at named contents. Every case hands all nine memrefs back: the three small inputs and the streamed adjacency
  block as found; the first scratch x at feat·(W1·W2) after the prologue; a band of 400 rows of the second scratch y
  at (adjacency block)·x after a first-pass point, its other rows kept; a cache at the adjacency block (format
  change only) after its point; the output block at (adjacency block or cache)·y after a second-pass point.
  The payload names are the generated skeleton's.
-/
import proofs.«165262_g80814104642079_cont_9to1c4b_39_18_alg».proof.Proof.Gen.KernelIdeal.Frame
import proofs.«165262_g80814104642079_cont_9to1c4b_39_18_alg».proof.Proof.KI.Conds
import proofs.«165262_g80814104642079_cont_9to1c4b_39_18_alg».proof.Proof.LibStoreRead
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of case A (point 0: the prologue and the first pass), on whole memrefs held at named contents: it runs to the end
    and hands every memref back, the ones it stored into at the stored payloads of the contents it loaded. -/
theorem runA (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x64 .bf16) (harg7 : arg7.IsWhole) (arg8 : Memref sig .tc .vmem S10000x64 .bf16) (harg8 : arg8.IsWhole) (arg9 : Memref sig .tc .vmem S400x10000 .bf16) (harg9 : arg9.IsWhole) (arg10 : Memref sig .tc .vmem S400x10000 .bf16) (harg10 : arg10.IsWhole)
    (h1 : cnd1 i) (h2 : ¬cnd2 i) (h3 : ¬cnd3 i) (h4 : cnd4 i) (h5 : ¬cnd5 i) (h6 : ¬cnd6 i) (h7 : ¬cnd7 i)
    (x0 : Vec F S10000x128 .f32) (x1 : Vec F S128x64 .f32) (x2 : Vec F S64x64 .f32) (x3 : Vec F S400x10000 .f32) (xo : Vec F S400x64 .f32)
    (xs : Vec F S10000x64 .bf16) (ys : Vec F S10000x64 .bf16) (a1 : Vec F S400x10000 .bf16) (a2 : Vec F S400x10000 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ owns (c : Thread nD τ) arg8 fullShare ys ∗ owns (c : Thread nD τ) arg9 fullShare a1 ∗ owns (c : Thread nD τ) arg10 fullShare a2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xo
            ∗ owns (c : Thread nD τ) arg7 fullShare (k0_pay2 x1 x2 x0)
            ∗ (∃ f, ⌜RowsPut (Rect.unit (s := S10000x64) (k0_off1 i) S400x64.size (Facts₀.k0_off1_inb i h4)) (k0_pay5 x3 (k0_pay2 x1 x2 x0)) ys (arg8.view.read (Elt F) f)⌝ ∗ arg8.view.loc (c : Thread nD τ) ↦[arg8.view.set]{fullShare} f)
            ∗ owns (c : Thread nD τ) arg9 fullShare a1
            ∗ owns (c : Thread nD τ) arg10 fullShare a2) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  sl_exec (disch := first | exact h1 | exact h2 | exact h3 | exact h4 | exact h5 | exact h6 | exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_run_names
    simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]
  isplitl [H6]
  · iexists _; isplitr
    swap; · iexact H6
    ipureintro
    sl_unfold_run_names
    simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]
    have h := View.rowsPut_of_store arg8.view (harg8.unread ys) (Rect.unit (s := S10000x64) (k0_off1 i) S400x64.size (Facts₀.k0_off1_inb i h4)) (k0_pay5 x3 (k0_pay2 x1 x2 x0))
    rw [hf6] at h
    exact h
  isplitl [H7]
  · iexists _; isplitr; · ipureintro; exact harg9.read_unread _
    iexact H7
  iexists _; isplitr; · ipureintro; exact harg10.read_unread _
  iexact H8

set_option maxHeartbeats 4000000 in
/-- The body at a point of case B (point 1: the first cache is filled, and the first pass), on whole memrefs held at named contents: it runs to the end
    and hands every memref back, the ones it stored into at the stored payloads of the contents it loaded. -/
theorem runB (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x64 .bf16) (harg7 : arg7.IsWhole) (arg8 : Memref sig .tc .vmem S10000x64 .bf16) (harg8 : arg8.IsWhole) (arg9 : Memref sig .tc .vmem S400x10000 .bf16) (harg9 : arg9.IsWhole) (arg10 : Memref sig .tc .vmem S400x10000 .bf16) (harg10 : arg10.IsWhole)
    (h1 : ¬cnd1 i) (h2 : cnd2 i) (h3 : ¬cnd3 i) (h4 : cnd4 i) (h5 : ¬cnd5 i) (h6 : ¬cnd6 i) (h7 : ¬cnd7 i)
    (x0 : Vec F S10000x128 .f32) (x1 : Vec F S128x64 .f32) (x2 : Vec F S64x64 .f32) (x3 : Vec F S400x10000 .f32) (xo : Vec F S400x64 .f32)
    (xs : Vec F S10000x64 .bf16) (ys : Vec F S10000x64 .bf16) (a1 : Vec F S400x10000 .bf16) (a2 : Vec F S400x10000 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ owns (c : Thread nD τ) arg8 fullShare ys ∗ owns (c : Thread nD τ) arg9 fullShare a1 ∗ owns (c : Thread nD τ) arg10 fullShare a2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xo
            ∗ owns (c : Thread nD τ) arg7 fullShare xs
            ∗ (∃ f, ⌜RowsPut (Rect.unit (s := S10000x64) (k0_off1 i) S400x64.size (Facts₀.k0_off1_inb i h4)) (k0_pay5 x3 xs) ys (arg8.view.read (Elt F) f)⌝ ∗ arg8.view.loc (c : Thread nD τ) ↦[arg8.view.set]{fullShare} f)
            ∗ owns (c : Thread nD τ) arg9 fullShare (k0_pay3 x3)
            ∗ owns (c : Thread nD τ) arg10 fullShare a2) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  sl_exec (disch := first | exact h1 | exact h2 | exact h3 | exact h4 | exact h5 | exact h6 | exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_run_names
    simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]
    have h := View.rowsPut_of_store arg8.view (harg8.unread ys) (Rect.unit (s := S10000x64) (k0_off1 i) S400x64.size (Facts₀.k0_off1_inb i h4)) (k0_pay5 x3 xs)
    rw [hf6] at h
    exact h
  isplitl [H7]
  · iexists _; isplitr
    swap; · iexact H7
    ipureintro
    sl_unfold_run_names
    simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]
  iexists _; isplitr; · ipureintro; exact harg10.read_unread _
  iexact H8

set_option maxHeartbeats 4000000 in
/-- The body at a point of case C (point 2: the second cache is filled, and the first pass), on whole memrefs held at named contents: it runs to the end
    and hands every memref back, the ones it stored into at the stored payloads of the contents it loaded. -/
theorem runC (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x64 .bf16) (harg7 : arg7.IsWhole) (arg8 : Memref sig .tc .vmem S10000x64 .bf16) (harg8 : arg8.IsWhole) (arg9 : Memref sig .tc .vmem S400x10000 .bf16) (harg9 : arg9.IsWhole) (arg10 : Memref sig .tc .vmem S400x10000 .bf16) (harg10 : arg10.IsWhole)
    (h1 : ¬cnd1 i) (h2 : ¬cnd2 i) (h3 : cnd3 i) (h4 : cnd4 i) (h5 : ¬cnd5 i) (h6 : ¬cnd6 i) (h7 : ¬cnd7 i)
    (x0 : Vec F S10000x128 .f32) (x1 : Vec F S128x64 .f32) (x2 : Vec F S64x64 .f32) (x3 : Vec F S400x10000 .f32) (xo : Vec F S400x64 .f32)
    (xs : Vec F S10000x64 .bf16) (ys : Vec F S10000x64 .bf16) (a1 : Vec F S400x10000 .bf16) (a2 : Vec F S400x10000 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ owns (c : Thread nD τ) arg8 fullShare ys ∗ owns (c : Thread nD τ) arg9 fullShare a1 ∗ owns (c : Thread nD τ) arg10 fullShare a2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xo
            ∗ owns (c : Thread nD τ) arg7 fullShare xs
            ∗ (∃ f, ⌜RowsPut (Rect.unit (s := S10000x64) (k0_off1 i) S400x64.size (Facts₀.k0_off1_inb i h4)) (k0_pay5 x3 xs) ys (arg8.view.read (Elt F) f)⌝ ∗ arg8.view.loc (c : Thread nD τ) ↦[arg8.view.set]{fullShare} f)
            ∗ owns (c : Thread nD τ) arg9 fullShare a1
            ∗ owns (c : Thread nD τ) arg10 fullShare (k0_pay4 x3)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  sl_exec (disch := first | exact h1 | exact h2 | exact h3 | exact h4 | exact h5 | exact h6 | exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_run_names
    simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]
    have h := View.rowsPut_of_store arg8.view (harg8.unread ys) (Rect.unit (s := S10000x64) (k0_off1 i) S400x64.size (Facts₀.k0_off1_inb i h4)) (k0_pay5 x3 xs)
    rw [hf6] at h
    exact h
  isplitl [H7]
  · iexists _; isplitr; · ipureintro; exact harg9.read_unread _
    iexact H7
  iexists _; isplitr
  swap; · iexact H8
  ipureintro
  sl_unfold_run_names
  simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]

set_option maxHeartbeats 4000000 in
/-- The body at a point of case D (points 3 … 24: the first pass alone), on whole memrefs held at named contents: it runs to the end
    and hands every memref back, the ones it stored into at the stored payloads of the contents it loaded. -/
theorem runD (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x64 .bf16) (harg7 : arg7.IsWhole) (arg8 : Memref sig .tc .vmem S10000x64 .bf16) (harg8 : arg8.IsWhole) (arg9 : Memref sig .tc .vmem S400x10000 .bf16) (harg9 : arg9.IsWhole) (arg10 : Memref sig .tc .vmem S400x10000 .bf16) (harg10 : arg10.IsWhole)
    (h1 : ¬cnd1 i) (h2 : ¬cnd2 i) (h3 : ¬cnd3 i) (h4 : cnd4 i) (h5 : ¬cnd5 i) (h6 : ¬cnd6 i) (h7 : ¬cnd7 i)
    (x0 : Vec F S10000x128 .f32) (x1 : Vec F S128x64 .f32) (x2 : Vec F S64x64 .f32) (x3 : Vec F S400x10000 .f32) (xo : Vec F S400x64 .f32)
    (xs : Vec F S10000x64 .bf16) (ys : Vec F S10000x64 .bf16) (a1 : Vec F S400x10000 .bf16) (a2 : Vec F S400x10000 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ owns (c : Thread nD τ) arg8 fullShare ys ∗ owns (c : Thread nD τ) arg9 fullShare a1 ∗ owns (c : Thread nD τ) arg10 fullShare a2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xo
            ∗ owns (c : Thread nD τ) arg7 fullShare xs
            ∗ (∃ f, ⌜RowsPut (Rect.unit (s := S10000x64) (k0_off1 i) S400x64.size (Facts₀.k0_off1_inb i h4)) (k0_pay5 x3 xs) ys (arg8.view.read (Elt F) f)⌝ ∗ arg8.view.loc (c : Thread nD τ) ↦[arg8.view.set]{fullShare} f)
            ∗ owns (c : Thread nD τ) arg9 fullShare a1
            ∗ owns (c : Thread nD τ) arg10 fullShare a2) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  sl_exec (disch := first | exact h1 | exact h2 | exact h3 | exact h4 | exact h5 | exact h6 | exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_run_names
    simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]
    have h := View.rowsPut_of_store arg8.view (harg8.unread ys) (Rect.unit (s := S10000x64) (k0_off1 i) S400x64.size (Facts₀.k0_off1_inb i h4)) (k0_pay5 x3 xs)
    rw [hf6] at h
    exact h
  isplitl [H7]
  · iexists _; isplitr; · ipureintro; exact harg9.read_unread _
    iexact H7
  iexists _; isplitr; · ipureintro; exact harg10.read_unread _
  iexact H8

set_option maxHeartbeats 4000000 in
/-- The body at a point of case E (points 25 … 46 and 49: the second pass on the streamed adjacency block), on whole memrefs held at named contents: it runs to the end
    and hands every memref back, the ones it stored into at the stored payloads of the contents it loaded. -/
theorem runE (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x64 .bf16) (harg7 : arg7.IsWhole) (arg8 : Memref sig .tc .vmem S10000x64 .bf16) (harg8 : arg8.IsWhole) (arg9 : Memref sig .tc .vmem S400x10000 .bf16) (harg9 : arg9.IsWhole) (arg10 : Memref sig .tc .vmem S400x10000 .bf16) (harg10 : arg10.IsWhole)
    (h1 : ¬cnd1 i) (h2 : ¬cnd2 i) (h3 : ¬cnd3 i) (h4 : ¬cnd4 i) (h5 : cnd5 i) (h6 : ¬cnd6 i) (h7 : ¬cnd7 i)
    (x0 : Vec F S10000x128 .f32) (x1 : Vec F S128x64 .f32) (x2 : Vec F S64x64 .f32) (x3 : Vec F S400x10000 .f32) (xo : Vec F S400x64 .f32)
    (xs : Vec F S10000x64 .bf16) (ys : Vec F S10000x64 .bf16) (a1 : Vec F S400x10000 .bf16) (a2 : Vec F S400x10000 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ owns (c : Thread nD τ) arg8 fullShare ys ∗ owns (c : Thread nD τ) arg9 fullShare a1 ∗ owns (c : Thread nD τ) arg10 fullShare a2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (k0_pay6 x3 ys)
            ∗ owns (c : Thread nD τ) arg7 fullShare xs
            ∗ owns (c : Thread nD τ) arg8 fullShare ys
            ∗ owns (c : Thread nD τ) arg9 fullShare a1
            ∗ owns (c : Thread nD τ) arg10 fullShare a2) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  sl_exec (disch := first | exact h1 | exact h2 | exact h3 | exact h4 | exact h5 | exact h6 | exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr; · ipureintro; exact harg10.read_unread _
  iexact H8

set_option maxHeartbeats 4000000 in
/-- The body at a point of case F (point 47: the second pass on the second cache), on whole memrefs held at named contents: it runs to the end
    and hands every memref back, the ones it stored into at the stored payloads of the contents it loaded. -/
theorem runF (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x64 .bf16) (harg7 : arg7.IsWhole) (arg8 : Memref sig .tc .vmem S10000x64 .bf16) (harg8 : arg8.IsWhole) (arg9 : Memref sig .tc .vmem S400x10000 .bf16) (harg9 : arg9.IsWhole) (arg10 : Memref sig .tc .vmem S400x10000 .bf16) (harg10 : arg10.IsWhole)
    (h1 : ¬cnd1 i) (h2 : ¬cnd2 i) (h3 : ¬cnd3 i) (h4 : ¬cnd4 i) (h5 : ¬cnd5 i) (h6 : cnd6 i) (h7 : ¬cnd7 i)
    (x0 : Vec F S10000x128 .f32) (x1 : Vec F S128x64 .f32) (x2 : Vec F S64x64 .f32) (x3 : Vec F S400x10000 .f32) (xo : Vec F S400x64 .f32)
    (xs : Vec F S10000x64 .bf16) (ys : Vec F S10000x64 .bf16) (a1 : Vec F S400x10000 .bf16) (a2 : Vec F S400x10000 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ owns (c : Thread nD τ) arg8 fullShare ys ∗ owns (c : Thread nD τ) arg9 fullShare a1 ∗ owns (c : Thread nD τ) arg10 fullShare a2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (k0_pay7 a2 ys)
            ∗ owns (c : Thread nD τ) arg7 fullShare xs
            ∗ owns (c : Thread nD τ) arg8 fullShare ys
            ∗ owns (c : Thread nD τ) arg9 fullShare a1
            ∗ owns (c : Thread nD τ) arg10 fullShare a2) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  sl_exec (disch := first | exact h1 | exact h2 | exact h3 | exact h4 | exact h5 | exact h6 | exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr; · ipureintro; exact harg10.read_unread _
  iexact H8

set_option maxHeartbeats 4000000 in
/-- The body at a point of case G (point 48: the second pass on the first cache), on whole memrefs held at named contents: it runs to the end
    and hands every memref back, the ones it stored into at the stored payloads of the contents it loaded. -/
theorem runG (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S400x10000 .f32) (harg5 : arg5.IsWhole) (arg6 : Memref sig .tc .vmem S400x64 .f32) (harg6 : arg6.IsWhole) (arg7 : Memref sig .tc .vmem S10000x64 .bf16) (harg7 : arg7.IsWhole) (arg8 : Memref sig .tc .vmem S10000x64 .bf16) (harg8 : arg8.IsWhole) (arg9 : Memref sig .tc .vmem S400x10000 .bf16) (harg9 : arg9.IsWhole) (arg10 : Memref sig .tc .vmem S400x10000 .bf16) (harg10 : arg10.IsWhole)
    (h1 : ¬cnd1 i) (h2 : ¬cnd2 i) (h3 : ¬cnd3 i) (h4 : ¬cnd4 i) (h5 : ¬cnd5 i) (h6 : ¬cnd6 i) (h7 : cnd7 i)
    (x0 : Vec F S10000x128 .f32) (x1 : Vec F S128x64 .f32) (x2 : Vec F S64x64 .f32) (x3 : Vec F S400x10000 .f32) (xo : Vec F S400x64 .f32)
    (xs : Vec F S10000x64 .bf16) (ys : Vec F S10000x64 .bf16) (a1 : Vec F S400x10000 .bf16) (a2 : Vec F S400x10000 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare xs
        ∗ owns (c : Thread nD τ) arg8 fullShare ys ∗ owns (c : Thread nD τ) arg9 fullShare a1 ∗ owns (c : Thread nD τ) arg10 fullShare a2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (k0_pay1 a1 ys)
            ∗ owns (c : Thread nD τ) arg7 fullShare xs
            ∗ owns (c : Thread nD τ) arg8 fullShare ys
            ∗ owns (c : Thread nD τ) arg9 fullShare a1
            ∗ owns (c : Thread nD τ) arg10 fullShare a2) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  sl_exec (disch := first | exact h1 | exact h2 | exact h3 | exact h4 | exact h5 | exact h6 | exact h7)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    simp only [View.read_store_whole (S := S400x64) _ _ zero_off2, View.read_store_whole (S := S10000x64) _ _ zero_off2, View.read_store_whole (S := S400x10000) _ _ zero_off2, View.readCov_unit_zero (S := S10000x64) _ zero_off2, harg2.readAt_whole zero_off2, harg3.readAt_whole zero_off2, harg4.readAt_whole zero_off2, harg5.readAt_whole zero_off2, harg6.readAt_whole zero_off2, harg7.readAt_whole zero_off2, harg8.readAt_whole zero_off2, harg9.readAt_whole zero_off2, harg10.readAt_whole zero_off2]
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr; · ipureintro; exact harg10.read_unread _
  iexact H8

end Cert.KernelIdeal.Gen

end
-- ==== Proof.KI.Data.lean ====
/-
  What the fused kernel carries from point to point, as pure mathematics over the payload names of the generated
  skeleton (so the same text serves the word-level and the exact reading).
  With feat, W1, W2 the whole small inputs and A_j the j-th block of 400 rows of the adjacency matrix:
    x    = feat·(W1·W2)                       stored whole into the first scratch at point 0;
    y    = rows [400 t, 400 t + 400) hold A_t·x, stored into the second scratch at point t < 25;
    c1, c2 = A_1, A_2 (a change of format)     stored into the caches at points 1 and 2;
    out at point t ≥ 25 = A·y for the streamed block A, c2·y at point 47, c1·y at point 48.
  `Inv n` says what the four scratch buffers hold after point n; the step lemmas say that each kind of point
  re-establishes it, and that once phase 0 is over the second scratch is exactly `Yfull`.
-/
import proofs.«165262_g80814104642079_cont_9to1c4b_39_18_alg».proof.Proof.KI.Conds
import proofs.«165262_g80814104642079_cont_9to1c4b_39_18_alg».proof.Proof.LibStoreRead
import Idealize.ShloMosaic.Lib.WritesUnit

set_option maxRecDepth 16384

noncomputable section

namespace Cert.KernelIdeal.Gen

open Idealize.ShloMosaic Idealize.ShloMosaic.TcCoe
open Idealize.SL Idealize.SL.Sem

variable {F : FTy → Type} [FloatOps F]

variable (m : (ℓ : Loc nD τ sig) → Buf (Elt F) ℓ)

/-- Point `n` of the 50-point grid. -/
def pt (n : ℕ) (h : n < 50) : Fin cfg0.N := ⟨n, lt_of_lt_of_eq h N_0.symm⟩

theorem val_lt (t : Fin cfg0.N) : t.val < 50 := lt_of_lt_of_eq t.isLt N_0

/-- The band of the second scratch stored at a first-pass point: 400 rows from row 400·t. -/
abbrev rectY (t : Fin cfg0.N) (h4 : cnd4 (grid0.coords t)) : Rect S10000x64 :=
  Rect.unit (s := S10000x64) (k0_off1 (grid0.coords t)) S400x64.size (Facts₀.k0_off1_inb (grid0.coords t) h4)

/-- x = feat·(W1·W2), from the small inputs' blocks at point 0. -/
def Xv (c : Dev nD) : Vec F S10000x64 .bf16 :=
  k0_pay2 (iblk m c 1 (pt 0 (by omega))) (iblk m c 2 (pt 0 (by omega))) (iblk m c 0 (pt 0 (by omega)))
/-- The band of y stored at point t: (adjacency block at t)·x. -/
def Yrow (c : Dev nD) (t : Fin cfg0.N) : Vec F S400x64 .bf16 := k0_pay5 (iblk m c 3 t) (Xv m c)
/-- The first cache: the adjacency block at point 1. -/
def A1v (c : Dev nD) : Vec F S400x10000 .bf16 := k0_pay3 (iblk m c 3 (pt 1 (by omega)))
/-- The second cache: the adjacency block at point 2. -/
def A2v (c : Dev nD) : Vec F S400x10000 .bf16 := k0_pay4 (iblk m c 3 (pt 2 (by omega)))

theorem row_lt (y : S10000x64.Idx) : (y 0).val < 10000 := (y 0).isLt

/-- Where an entry of y sits within its band. -/
def bandPos (y : S10000x64.Idx) : S400x64.Idx :=
  Rect.unitLocal (s := S10000x64) (off := ![400 * ((y 0).val / 400), 0]) (size := S400x64.size) y
    (Rect.unit_rows_mem (d := ![10000, 64]) (size := S400x64.size) (o := 400 * ((y 0).val / 400)) (W := 400) y rfl rfl
      ⟨by omega, by omega⟩)

/-- y once phase 0 is over: entry (r, l) is entry (r mod 400, l) of the band stored at point r / 400. -/
def Yfull (c : Dev nD) : Vec F S10000x64 .bf16 := fun y =>
  Yrow m c (pt ((y 0).val / 400) (by have := row_lt y; omega)) (bandPos y)

/-- The output block the body stores at a second-pass point. -/
def OutAt (c : Dev nD) (t : Fin cfg0.N) : Vec F S400x64 .f32 :=
  if t.val = 47 then k0_pay7 (A2v m c) (Yfull m c)
  else if t.val = 48 then k0_pay1 (A1v m c) (Yfull m c)
  else k0_pay6 (iblk m c 3 t) (Yfull m c)

/-- What the scratch buffers hold after point `n`: x whole; y's bands of the first-pass points up to `n`; each
    cache from its point on. -/
def Inv (c : Dev nD) (n : ℕ) (x y : Vec F S10000x64 .bf16) (a1 a2 : Vec F S400x10000 .bf16) : Prop :=
  x = Xv m c
  ∧ (∀ (t' : Fin cfg0.N) (h4 : cnd4 (grid0.coords t')), t'.val ≤ n → ∀ xx, y ((rectY t' h4).emb xx) = Yrow m c t' xx)
  ∧ (1 ≤ n → a1 = A1v m c) ∧ (2 ≤ n → a2 = A2v m c)

/-- Row coordinate of an entry of the band stored at point t: 400·t + its row within the band. -/
theorem emb_row (t : Fin cfg0.N) (h4 : cnd4 (grid0.coords t)) (xx : (rectY t h4).shape.Idx) :
    (((rectY t h4).emb xx) 0).val = 400 * t.val + (xx 0).val := by
  have hlt := (hc4 t).mp h4
  rw [Rect.emb_apply]
  show k0_off1 (grid0.coords t) 0 + 1 * (xx 0).val = _
  rw [off1_closed t hlt]
  simp

theorem emb_col (t : Fin cfg0.N) (h4 : cnd4 (grid0.coords t)) (xx : (rectY t h4).shape.Idx) :
    (((rectY t h4).emb xx) 1).val = (xx 1).val := by
  have hlt := (hc4 t).mp h4
  rw [Rect.emb_apply]
  show k0_off1 (grid0.coords t) 1 + 1 * (xx 1).val = _
  rw [off1_closed t hlt]
  simp

/-- Bands of different first-pass points are disjoint. -/
theorem band_not_mem (t t' : Fin cfg0.N) (h4 : cnd4 (grid0.coords t)) (h4' : cnd4 (grid0.coords t')) (hne : t'.val ≠ t.val)
    (xx : (rectY t' h4').shape.Idx) : (rectY t' h4').emb xx ∉ (rectY t h4).set := by
  have hlt := (hc4 t).mp h4
  intro hmem
  rw [Rect.mem_set_unit] at hmem
  have h0 := hmem 0
  rw [emb_row t' h4' xx, off1_closed t hlt] at h0
  have hx : (xx 0).val < 400 := (xx 0).isLt
  have h0' : 400 * t.val ≤ 400 * t'.val + (xx 0).val ∧ 400 * t'.val + (xx 0).val < 400 * t.val + 400 := h0
  omega

/-- A first-pass point adds its band and keeps the earlier ones. -/
theorem rows_step (c : Dev nD) (t : Fin cfg0.N) (h4 : cnd4 (grid0.coords t)) (y y' : Vec F S10000x64 .bf16)
    (hprev : ∀ (t' : Fin cfg0.N) (h4' : cnd4 (grid0.coords t')), t'.val < t.val → ∀ xx, y ((rectY t' h4').emb xx) = Yrow m c t' xx)
    (hput : RowsPut (rectY t h4) (k0_pay5 (iblk m c 3 t) (Xv m c)) y y') :
    ∀ (t' : Fin cfg0.N) (h4' : cnd4 (grid0.coords t')), t'.val ≤ t.val → ∀ xx, y' ((rectY t' h4').emb xx) = Yrow m c t' xx := by
  intro t' h4' hle xx
  by_cases e : t'.val = t.val
  · obtain rfl : t' = t := Fin.ext e
    exact hput.1 xx
  · rw [hput.2 _ (band_not_mem t t' h4 h4' e xx)]
    exact hprev t' h4' (by omega) xx

/-- Once every first-pass point is done, y is `Yfull`. -/
theorem y_full (c : Dev nD) (n : ℕ) (hn : 24 ≤ n) (y : Vec F S10000x64 .bf16)
    (hrows : ∀ (t' : Fin cfg0.N) (h4 : cnd4 (grid0.coords t')), t'.val ≤ n → ∀ xx, y ((rectY t' h4).emb xx) = Yrow m c t' xx) :
    y = Yfull m c := by
  funext idx
  have hr := row_lt idx
  have hlt : (pt ((idx 0).val / 400) (by omega)).val < 25 := by show (idx 0).val / 400 < 25; omega
  have h4 : cnd4 (grid0.coords (pt ((idx 0).val / 400) (by omega))) := (hc4 _).mpr hlt
  have he : (rectY (pt ((idx 0).val / 400) (by omega)) h4).emb (bandPos idx) = idx := by
    funext a
    apply Fin.ext
    rw [Rect.emb_apply]
    show k0_off1 (grid0.coords (pt ((idx 0).val / 400) (by omega))) a + 1 * ((idx a).val - (![400 * ((idx 0).val / 400), 0] : Fin 2 → ℕ) a) = (idx a).val
    rw [off1_closed _ hlt]
    show (![400 * ((idx 0).val / 400), 0] : Fin 2 → ℕ) a + 1 * ((idx a).val - (![400 * ((idx 0).val / 400), 0] : Fin 2 → ℕ) a) = (idx a).val
    fin_cases a
    · show 400 * ((idx 0).val / 400) + 1 * ((idx 0).val - 400 * ((idx 0).val / 400)) = (idx 0).val
      omega
    · show 0 + 1 * ((idx 1).val - 0) = (idx 1).val
      omega
  have h := hrows _ h4 (by show (idx 0).val / 400 ≤ n; omega) (bandPos idx)
  rw [he] at h
  exact h

/-- Point 0 (prologue and first pass) establishes the invariant. -/
theorem inv_A (c : Dev nD) (t : Fin cfg0.N) (ht : t.val = 0) (h4 : cnd4 (grid0.coords t)) (y y' : Vec F S10000x64 .bf16)
    (a1 a2 : Vec F S400x10000 .bf16)
    (hput : RowsPut (rectY t h4) (k0_pay5 (iblk m c 3 t) (k0_pay2 (iblk m c 1 t) (iblk m c 2 t) (iblk m c 0 t))) y y') :
    Inv m c t.val (k0_pay2 (iblk m c 1 t) (iblk m c 2 t) (iblk m c 0 t)) y' a1 a2 := by
  obtain rfl : t = pt 0 (by decide) := Fin.ext ht
  refine ⟨rfl, rows_step m c _ h4 y y' (fun t' _ hlt => absurd hlt (Nat.not_lt_zero _)) hput, fun h => absurd h (by decide), fun h => absurd h (by decide)⟩

/-- Point 1 (the first cache and the first pass) keeps it. -/
theorem inv_B (c : Dev nD) (t : Fin cfg0.N) (ht : t.val = 1) (h4 : cnd4 (grid0.coords t)) (x y y' : Vec F S10000x64 .bf16)
    (a1 a2 : Vec F S400x10000 .bf16) (hI : Inv m c (t.val - 1) x y a1 a2)
    (hput : RowsPut (rectY t h4) (k0_pay5 (iblk m c 3 t) x) y y') :
    Inv m c t.val x y' (k0_pay3 (iblk m c 3 t)) a2 := by
  obtain ⟨hx, hrows, -, -⟩ := hI
  subst hx
  refine ⟨rfl, rows_step m c t h4 y y' (fun t' h4' hlt => hrows t' h4' (by omega)) hput, fun _ => ?_, fun h => absurd h (by omega)⟩
  obtain rfl : t = pt 1 (by decide) := Fin.ext ht
  rfl

/-- Point 2 (the second cache and the first pass) keeps it. -/
theorem inv_C (c : Dev nD) (t : Fin cfg0.N) (ht : t.val = 2) (h4 : cnd4 (grid0.coords t)) (x y y' : Vec F S10000x64 .bf16)
    (a1 a2 : Vec F S400x10000 .bf16) (hI : Inv m c (t.val - 1) x y a1 a2)
    (hput : RowsPut (rectY t h4) (k0_pay5 (iblk m c 3 t) x) y y') :
    Inv m c t.val x y' a1 (k0_pay4 (iblk m c 3 t)) := by
  obtain ⟨hx, hrows, h1, -⟩ := hI
  subst hx
  refine ⟨rfl, rows_step m c t h4 y y' (fun t' h4' hlt => hrows t' h4' (by omega)) hput, fun _ => h1 (by omega), fun _ => ?_⟩
  obtain rfl : t = pt 2 (by decide) := Fin.ext ht
  rfl

/-- A later first-pass point keeps it. -/
theorem inv_D (c : Dev nD) (t : Fin cfg0.N) (ht : 3 ≤ t.val) (h4 : cnd4 (grid0.coords t)) (x y y' : Vec F S10000x64 .bf16)
    (a1 a2 : Vec F S400x10000 .bf16) (hI : Inv m c (t.val - 1) x y a1 a2)
    (hput : RowsPut (rectY t h4) (k0_pay5 (iblk m c 3 t) x) y y') :
    Inv m c t.val x y' a1 a2 := by
  obtain ⟨hx, hrows, h1, h2⟩ := hI
  subst hx
  exact ⟨rfl, rows_step m c t h4 y y' (fun t' h4' hlt => hrows t' h4' (by omega)) hput, fun _ => h1 (by omega), fun _ => h2 (by omega)⟩

/-- A second-pass point stores into no scratch: the invariant goes on, -/
theorem inv_keep (c : Dev nD) (t : Fin cfg0.N) (ht : 25 ≤ t.val) (x y : Vec F S10000x64 .bf16)
    (a1 a2 : Vec F S400x10000 .bf16) (hI : Inv m c (t.val - 1) x y a1 a2) : Inv m c t.val x y a1 a2 := by
  obtain ⟨hx, hrows, h1, h2⟩ := hI
  exact ⟨hx, fun t' h4' _ xx => hrows t' h4' (by have := (hc4 t').mp h4'; omega) xx, fun _ => h1 (by omega), fun _ => h2 (by omega)⟩

/-- and there y is `Yfull` and both caches are filled. -/
theorem inv_phase1 (c : Dev nD) (t : Fin cfg0.N) (ht : 25 ≤ t.val) (x y : Vec F S10000x64 .bf16)
    (a1 a2 : Vec F S400x10000 .bf16) (hI : Inv m c (t.val - 1) x y a1 a2) :
    y = Yfull m c ∧ a1 = A1v m c ∧ a2 = A2v m c := by
  obtain ⟨-, hrows, h1, h2⟩ := hI
  exact ⟨y_full m c (t.val - 1) (by omega) y hrows, h1 (by omega), h2 (by omega)⟩

end Cert.KernelIdeal.Gen

end
-- ==== Proof.KI.Body.lean ====
/-
  The frame run of the fused kernel. The region's invariant before point n + 1 holds the four scratch buffers at
  SOME contents satisfying `Inv n` (before point 0 at anything); the body at each of the seven kinds of point takes
  the invariant and the windows' blocks, runs (the case's run), and gives the invariant of the next point back, by
  the step lemmas. The output window is idle and not written back through phase 0; in phase 1 its staging buffer is
  left at the point's output block `OutAt`. The launch theorem then runs the whole grid.
-/
import proofs.«165262_g80814104642079_cont_9to1c4b_39_18_alg».proof.Proof.Gen.KernelIdeal.Frame
import proofs.«165262_g80814104642079_cont_9to1c4b_39_18_alg».proof.Proof.KI.Runs
import proofs.«165262_g80814104642079_cont_9to1c4b_39_18_alg».proof.Proof.KI.Data
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it, and its wholeness. -/
abbrev ms0 (t : Fin cfg0.N) : Memref sig .tc .vmem S10000x128 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S128x64 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S64x64 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S400x10000 .f32 := win0_3.stage (cfg0.slots t 3)
abbrev hs3 (t : Fin cfg0.N) : (ms3 t).IsWhole := Facts₀.hstage0_3 ((cfg0.slots t 3).cast Facts₀.nbuf0_3)
abbrev ms4 (t : Fin cfg0.N) : Memref sig .tc .vmem S400x64 .f32 := win0_4.stage (cfg0.slots t 4)
abbrev hs4 (t : Fin cfg0.N) : (ms4 t).IsWhole := Facts₀.hstage0_4 ((cfg0.slots t 4).cast Facts₀.nbuf0_4)
/-- The four scratch operands: whole scoped buffers passed beside the windows. -/
abbrev scX : Memref sig .tc .vmem S10000x64 .bf16 := Memref.whole cc0_scratch0
abbrev scY : Memref sig .tc .vmem S10000x64 .bf16 := Memref.whole cc0_scratch1
abbrev scA1 : Memref sig .tc .vmem S400x10000 .bf16 := Memref.whole cc0_scratch2
abbrev scA2 : Memref sig .tc .vmem S400x10000 .bf16 := Memref.whole cc0_scratch3

/-- The class's invariant with the scratch operands as memrefs owned at some contents. -/
theorem PhiA0_eq (c : Dev nD) :
    (Pipeline.ΦA spec0 c : sProp 𝕄)
      = iprop(iprop((∃ d, owns (c : Thread nD τ) scX fullShare d) ∗ (∃ d, owns (c : Thread nD τ) scY fullShare d) ∗ (∃ d, owns (c : Thread nD τ) scA1 fullShare d) ∗ (∃ d, owns (c : Thread nD τ) scA2 fullShare d)) ∗ (∃ r, prngReg c r)) := by
  unfold Pipeline.ΦA; rw [scopedRest0_eq]; simp only [scX, scY, scA1, scA2, owns_whole]; try rfl

/-- The region invariant before position `n`: before the first point the class's; afterwards the four scratch
    buffers at contents satisfying `Inv` of the point before, and the generator register at some state. -/
def PhiS (c : Dev nD) : ℕ → sProp 𝕄
  | 0 => Pipeline.ΦA spec0 c
  | n + 1 => iprop(∃ x : Vec F S10000x64 .bf16, ∃ y : Vec F S10000x64 .bf16, ∃ a1 : Vec F S400x10000 .bf16, ∃ a2 : Vec F S400x10000 .bf16, ⌜Inv m c n x y a1 a2⌝ ∗ owns (c : Thread nD τ) scX fullShare x ∗ owns (c : Thread nD τ) scY fullShare y ∗ owns (c : Thread nD τ) scA1 fullShare a1 ∗ owns (c : Thread nD τ) scA2 fullShare a2 ∗ (∃ r, prngReg c r))

theorem PhiS_succ (c : Dev nD) (n : ℕ) :
    PhiS m c (n + 1) = iprop(∃ x : Vec F S10000x64 .bf16, ∃ y : Vec F S10000x64 .bf16, ∃ a1 : Vec F S400x10000 .bf16, ∃ a2 : Vec F S400x10000 .bf16, ⌜Inv m c n x y a1 a2⌝ ∗ owns (c : Thread nD τ) scX fullShare x ∗ owns (c : Thread nD τ) scY fullShare y ∗ owns (c : Thread nD τ) scA1 fullShare a1 ∗ owns (c : Thread nD τ) scA2 fullShare a2 ∗ (∃ r, prngReg c r)) := rfl

/-- Either way the scratch buffers are there at some contents, which after a first point satisfy the invariant. -/
theorem PhiS_open (c : Dev nD) (n : ℕ) :
    PhiS m c n ⊢ iprop(∃ x : Vec F S10000x64 .bf16, ∃ y : Vec F S10000x64 .bf16, ∃ a1 : Vec F S400x10000 .bf16, ∃ a2 : Vec F S400x10000 .bf16, ⌜n ≠ 0 → Inv m c (n - 1) x y a1 a2⌝ ∗ owns (c : Thread nD τ) scX fullShare x ∗ owns (c : Thread nD τ) scY fullShare y ∗ owns (c : Thread nD τ) scA1 fullShare a1 ∗ owns (c : Thread nD τ) scA2 fullShare a2 ∗ (∃ r, prngReg c r)) := by
  cases n with
  | zero =>
    rewrite [show PhiS m c 0 = Pipeline.ΦA spec0 c from rfl, PhiA0_eq]
    iintro ⟨⟨⟨%x, Hx⟩, ⟨%y, Hy⟩, ⟨%a1, H1⟩, ⟨%a2, H2⟩⟩, Hg⟩
    iexists x; iexists y; iexists a1; iexists a2
    isplitr
    · ipureintro; intro h; exact absurd rfl h
    isplitl [Hx]; · iexact Hx
    isplitl [Hy]; · iexact Hy
    isplitl [H1]; · iexact H1
    isplitl [H2]; · iexact H2
    iexact Hg
  | succ n =>
    rewrite [PhiS_succ]
    iintro ⟨%x, %y, %a1, %a2, %hI, Hx, Hy, H1, H2, Hg⟩
    iexists x; iexists y; iexists a1; iexists a2
    isplitr
    · ipureintro; intro _; exact hI
    isplitl [Hx]; · iexact Hx
    isplitl [Hy]; · iexact Hy
    isplitl [H1]; · iexact H1
    isplitl [H2]; · iexact H2
    iexact Hg

/-! ## The pipeline's proof data -/

/-- The proof data of the pipeline on core `c`: the arrays as the region finds them; after the body each input's
    buffer at its block and the output's at the point's output block; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => OutAt m c t
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = OutAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: which of the seven kinds the point is of is read off its position; the kind's run applies
    to the inputs' blocks and the scratch contents the invariant hands over, and the step lemmas re-establish the
    invariant on what the run hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rewrite [show (dats m 0 c).owesAt () t.succ = (dats m 0 c).owesAt () t.castSucc from rfl]
  rewrite [show (dats m 0 c).Φ t.succ = PhiS m c (t.val + 1) from rfl]
  rewrite [show (dats m 0 c).leavesExact 0 t = owns (c : Thread nD τ) (ms0 t) fullShare ((dats m 0 c).after 0 t) from by
    unfold Dat.leavesExact; rw [live_in 0 (by decide) t], after0_0]
  rewrite [show (dats m 0 c).leavesExact 1 t = owns (c : Thread nD τ) (ms1 t) fullShare ((dats m 0 c).after 1 t) from by
    unfold Dat.leavesExact; rw [live_in 1 (by decide) t], after0_1]
  rewrite [show (dats m 0 c).leavesExact 2 t = owns (c : Thread nD τ) (ms2 t) fullShare ((dats m 0 c).after 2 t) from by
    unfold Dat.leavesExact; rw [live_in 2 (by decide) t], after0_2]
  rewrite [show (dats m 0 c).leavesExact 3 t = owns (c : Thread nD τ) (ms3 t) fullShare ((dats m 0 c).after 3 t) from by
    unfold Dat.leavesExact; rw [live_in 3 (by decide) t], after0_3]
  rewrite [PhiS_castSucc m c t]
  have hN := val_lt t
  by_cases hA : t.val = 0
  · -- point 0
    have h1 : cnd1 (grid0.coords t) := (hc1 t).mpr hA
    have h2 : ¬cnd2 (grid0.coords t) := fun h => by have := (hc2 t).mp h; omega
    have h3 : ¬cnd3 (grid0.coords t) := fun h => by have := (hc3 t).mp h; omega
    have h4 : cnd4 (grid0.coords t) := (hc4 t).mpr (by omega)
    have h5 : ¬cnd5 (grid0.coords t) := fun h => by have := (hc5 t).mp h; omega
    have h6 : ¬cnd6 (grid0.coords t) := fun h => by have := (hc6 t).mp h; omega
    have h7 : ¬cnd7 (grid0.coords t) := fun h => by have := (hc7 t).mp h; omega
    rewrite [Dat.leavesExact_idle (dats m 0 c) 4 t (idle_out t (by omega)) (noflush_out t (by omega))]
    iintro ⟨HΦ, Ho, ⟨%d0, H0⟩, ⟨%d1, H1⟩, ⟨%d2, H2⟩, ⟨%d3, H3⟩, ⟨%d4, H4⟩⟩
    ihave HΦ' := (PhiS_open m c t.val) $$ HΦ
    icases HΦ' with ⟨%x, %y, %a1, %a2, %hI, Hx, Hy, Ha1, Ha2, Hg⟩
    iapply (runA c (grid0.coords t) (ms0 t) (hs0 t) (ms1 t) (hs1 t) (ms2 t) (hs2 t) (ms3 t) (hs3 t) (ms4 t) (hs4 t) scX (Memref.isWhole_whole _) scY (Memref.isWhole_whole _) scA1 (Memref.isWhole_whole _) scA2 (Memref.isWhole_whole _) h1 h2 h3 h4 h5 h6 h7 (iblk m c 0 t) (iblk m c 1 t) (iblk m c 2 t) (iblk m c 3 t) _ x y a1 a2 Set.univ _)
    isplitl [H0]; · iexact H0
    isplitl [H1]; · iexact H1
    isplitl [H2]; · iexact H2
    isplitl [H3]; · iexact H3
    isplitl [H4]; · iexact H4
    isplitl [Hx]; · iexact Hx
    isplitl [Hy]; · iexact Hy
    isplitl [Ha1]; · iexact Ha1
    isplitl [Ha2]; · iexact Ha2
    iintro ⟨H0, H1, H2, H3, H4, Hx, ⟨%fy, %hput, Hy⟩, Ha1, Ha2⟩
    isplitl [Hx Hy Ha1 Ha2 Hg]
    · rewrite [PhiS_succ]
      iexists _; iexists _; iexists _; iexists _
      isplitr
      · ipureintro; exact inv_A m c t hA h4 y _ a1 a2 hput
      isplitl [Hx]; · iexact Hx
      isplitl [Hy]
      · unfold owns; iexists fy; isplitr; · ipureintro; rfl
        iexact Hy
      isplitl [Ha1]; · iexact Ha1
      isplitl [Ha2]; · iexact Ha2
      iexact Hg
    isplitl [Ho]; · iexact Ho
    isplitl [H0]; · iexact H0
    isplitl [H1]; · iexact H1
    isplitl [H2]; · iexact H2
    isplitl [H3]; · iexact H3
    iexists _; iexact H4
  by_cases hB : t.val = 1
  · -- point 1
    have h1 : ¬cnd1 (grid0.coords t) := fun h => by have := (hc1 t).mp h; omega
    have h2 : cnd2 (grid0.coords t) := (hc2 t).mpr hB
    have h3 : ¬cnd3 (grid0.coords t) := fun h => by have := (hc3 t).mp h; omega
    have h4 : cnd4 (grid0.coords t) := (hc4 t).mpr (by omega)
    have h5 : ¬cnd5 (grid0.coords t) := fun h => by have := (hc5 t).mp h; omega
    have h6 : ¬cnd6 (grid0.coords t) := fun h => by have := (hc6 t).mp h; omega
    have h7 : ¬cnd7 (grid0.coords t) := fun h => by have := (hc7 t).mp h; omega
    rewrite [Dat.leavesExact_idle (dats m 0 c) 4 t (idle_out t (by omega)) (noflush_out t (by omega))]
    iintro ⟨HΦ, Ho, ⟨%d0, H0⟩, ⟨%d1, H1⟩, ⟨%d2, H2⟩, ⟨%d3, H3⟩, ⟨%d4, H4⟩⟩
    ihave HΦ' := (PhiS_open m c t.val) $$ HΦ
    icases HΦ' with ⟨%x, %y, %a1, %a2, %hI, Hx, Hy, Ha1, Ha2, Hg⟩
    iapply (runB c (grid0.coords t) (ms0 t) (hs0 t) (ms1 t) (hs1 t) (ms2 t) (hs2 t) (ms3 t) (hs3 t) (ms4 t) (hs4 t) scX (Memref.isWhole_whole _) scY (Memref.isWhole_whole _) scA1 (Memref.isWhole_whole _) scA2 (Memref.isWhole_whole _) h1 h2 h3 h4 h5 h6 h7 (iblk m c 0 t) (iblk m c 1 t) (iblk m c 2 t) (iblk m c 3 t) _ x y a1 a2 Set.univ _)
    isplitl [H0]; · iexact H0
    isplitl [H1]; · iexact H1
    isplitl [H2]; · iexact H2
    isplitl [H3]; · iexact H3
    isplitl [H4]; · iexact H4
    isplitl [Hx]; · iexact Hx
    isplitl [Hy]; · iexact Hy
    isplitl [Ha1]; · iexact Ha1
    isplitl [Ha2]; · iexact Ha2
    iintro ⟨H0, H1, H2, H3, H4, Hx, ⟨%fy, %hput, Hy⟩, Ha1, Ha2⟩
    isplitl [Hx Hy Ha1 Ha2 Hg]
    · rewrite [PhiS_succ]
      iexists _; iexists _; iexists _; iexists _
      isplitr
      · ipureintro; exact inv_B m c t hB h4 x y _ a1 a2 (hI (by omega)) hput
      isplitl [Hx]; · iexact Hx
      isplitl [Hy]
      · unfold owns; iexists fy; isplitr; · ipureintro; rfl
        iexact Hy
      isplitl [Ha1]; · iexact Ha1
      isplitl [Ha2]; · iexact Ha2
      iexact Hg
    isplitl [Ho]; · iexact Ho
    isplitl [H0]; · iexact H0
    isplitl [H1]; · iexact H1
    isplitl [H2]; · iexact H2
    isplitl [H3]; · iexact H3
    iexists _; iexact H4
  by_cases hC : t.val = 2
  · -- point 2
    have h1 : ¬cnd1 (grid0.coords t) := fun h => by have := (hc1 t).mp h; omega
    have h2 : ¬cnd2 (grid0.coords t) := fun h => by have := (hc2 t).mp h; omega
    have h3 : cnd3 (grid0.coords t) := (hc3 t).mpr hC
    have h4 : cnd4 (grid0.coords t) := (hc4 t).mpr (by omega)
    have h5 : ¬cnd5 (grid0.coords t) := fun h => by have := (hc5 t).mp h; omega
    have h6 : ¬cnd6 (grid0.coords t) := fun h => by have := (hc6 t).mp h; omega
    have h7 : ¬cnd7 (grid0.coords t) := fun h => by have := (hc7 t).mp h; omega
    rewrite [Dat.leavesExact_idle (dats m 0 c) 4 t (idle_out t (by omega)) (noflush_out t (by omega))]
    iintro ⟨HΦ, Ho, ⟨%d0, H0⟩, ⟨%d1, H1⟩, ⟨%d2, H2⟩, ⟨%d3, H3⟩, ⟨%d4, H4⟩⟩
    ihave HΦ' := (PhiS_open m c t.val) $$ HΦ
    icases HΦ' with ⟨%x, %y, %a1, %a2, %hI, Hx, Hy, Ha1, Ha2, Hg⟩
    iapply (runC c (grid0.coords t) (ms0 t) (hs0 t) (ms1 t) (hs1 t) (ms2 t) (hs2 t) (ms3 t) (hs3 t) (ms4 t) (hs4 t) scX (Memref.isWhole_whole _) scY (Memref.isWhole_whole _) scA1 (Memref.isWhole_whole _) scA2 (Memref.isWhole_whole _) h1 h2 h3 h4 h5 h6 h7 (iblk m c 0 t) (iblk m c 1 t) (iblk m c 2 t) (iblk m c 3 t) _ x y a1 a2 Set.univ _)
    isplitl [H0]; · iexact H0
    isplitl [H1]; · iexact H1
    isplitl [H2]; · iexact H2
    isplitl [H3]; · iexact H3
    isplitl [H4]; · iexact H4
    isplitl [Hx]; · iexact Hx
    isplitl [Hy]; · iexact Hy
    isplitl [Ha1]; · iexact Ha1
    isplitl [Ha2]; · iexact Ha2
    iintro ⟨H0, H1, H2, H3, H4, Hx, ⟨%fy, %hput, Hy⟩, Ha1, Ha2⟩
    isplitl [Hx Hy Ha1 Ha2 Hg]
    · rewrite [PhiS_succ]
      iexists _; iexists _; iexists _; iexists _
      isplitr
      · ipureintro; exact inv_C m c t hC h4 x y _ a1 a2 (hI (by omega)) hput
      isplitl [Hx]; · iexact Hx
      isplitl [Hy]
      · unfold owns; iexists fy; isplitr; · ipureintro; rfl
        iexact Hy
      isplitl [Ha1]; · iexact Ha1
      isplitl [Ha2]; · iexact Ha2
      iexact Hg
    isplitl [Ho]; · iexact Ho
    isplitl [H0]; · iexact H0
    isplitl [H1]; · iexact H1
    isplitl [H2]; · iexact H2
    isplitl [H3]; · iexact H3
    iexists _; iexact H4
  by_cases hD : t.val < 25
  · -- points 3 … 24
    have h1 : ¬cnd1 (grid0.coords t) := fun h => by have := (hc1 t).mp h; omega
    have h2 : ¬cnd2 (grid0.coords t) := fun h => by have := (hc2 t).mp h; omega
    have h3 : ¬cnd3 (grid0.coords t) := fun h => by have := (hc3 t).mp h; omega
    have h4 : cnd4 (grid0.coords t) := (hc4 t).mpr hD
    have h5 : ¬cnd5 (grid0.coords t) := fun h => by have := (hc5 t).mp h; omega
    have h6 : ¬cnd6 (grid0.coords t) := fun h => by have := (hc6 t).mp h; omega
    have h7 : ¬cnd7 (grid0.coords t) := fun h => by have := (hc7 t).mp h; omega
    rewrite [Dat.leavesExact_idle (dats m 0 c) 4 t (idle_out t (by omega)) (noflush_out t (by omega))]
    iintro ⟨HΦ, Ho, ⟨%d0, H0⟩, ⟨%d1, H1⟩, ⟨%d2, H2⟩, ⟨%d3, H3⟩, ⟨%d4, H4⟩⟩
    ihave HΦ' := (PhiS_open m c t.val) $$ HΦ
    icases HΦ' with ⟨%x, %y, %a1, %a2, %hI, Hx, Hy, Ha1, Ha2, Hg⟩
    iapply (runD c (grid0.coords t) (ms0 t) (hs0 t) (ms1 t) (hs1 t) (ms2 t) (hs2 t) (ms3 t) (hs3 t) (ms4 t) (hs4 t) scX (Memref.isWhole_whole _) scY (Memref.isWhole_whole _) scA1 (Memref.isWhole_whole _) scA2 (Memref.isWhole_whole _) h1 h2 h3 h4 h5 h6 h7 (iblk m c 0 t) (iblk m c 1 t) (iblk m c 2 t) (iblk m c 3 t) _ x y a1 a2 Set.univ _)
    isplitl [H0]; · iexact H0
    isplitl [H1]; · iexact H1
    isplitl [H2]; · iexact H2
    isplitl [H3]; · iexact H3
    isplitl [H4]; · iexact H4
    isplitl [Hx]; · iexact Hx
    isplitl [Hy]; · iexact Hy
    isplitl [Ha1]; · iexact Ha1
    isplitl [Ha2]; · iexact Ha2
    iintro ⟨H0, H1, H2, H3, H4, Hx, ⟨%fy, %hput, Hy⟩, Ha1, Ha2⟩
    isplitl [Hx Hy Ha1 Ha2 Hg]
    · rewrite [PhiS_succ]
      iexists _; iexists _; iexists _; iexists _
      isplitr
      · ipureintro; exact inv_D m c t (by omega) h4 x y _ a1 a2 (hI (by omega)) hput
      isplitl [Hx]; · iexact Hx
      isplitl [Hy]
      · unfold owns; iexists fy; isplitr; · ipureintro; rfl
        iexact Hy
      isplitl [Ha1]; · iexact Ha1
      isplitl [Ha2]; · iexact Ha2
      iexact Hg
    isplitl [Ho]; · iexact Ho
    isplitl [H0]; · iexact H0
    isplitl [H1]; · iexact H1
    isplitl [H2]; · iexact H2
    isplitl [H3]; · iexact H3
    iexists _; iexact H4
  by_cases hF : t.val = 47
  · -- point 47
    have h1 : ¬cnd1 (grid0.coords t) := fun h => by have := (hc1 t).mp h; omega
    have h2 : ¬cnd2 (grid0.coords t) := fun h => by have := (hc2 t).mp h; omega
    have h3 : ¬cnd3 (grid0.coords t) := fun h => by have := (hc3 t).mp h; omega
    have h4 : ¬cnd4 (grid0.coords t) := fun h => by have := (hc4 t).mp h; omega
    have h5 : ¬cnd5 (grid0.coords t) := fun h => by have := (hc5 t).mp h; omega
    have h6 : cnd6 (grid0.coords t) := (hc6 t).mpr hF
    have h7 : ¬cnd7 (grid0.coords t) := fun h => by have := (hc7 t).mp h; omega
    rewrite [show (dats m 0 c).leavesExact 4 t = owns (c : Thread nD τ) (ms4 t) fullShare ((dats m 0 c).after 4 t) from by
      unfold Dat.leavesExact; rw [live_out t (by omega)], after0_4]
    rewrite [show OutAt m c t = k0_pay7 (A2v m c) (Yfull m c) from by unfold OutAt; rw [if_pos hF]]
    iintro ⟨HΦ, Ho, ⟨%d0, H0⟩, ⟨%d1, H1⟩, ⟨%d2, H2⟩, ⟨%d3, H3⟩, ⟨%d4, H4⟩⟩
    ihave HΦ' := (PhiS_open m c t.val) $$ HΦ
    icases HΦ' with ⟨%x, %y, %a1, %a2, %hI, Hx, Hy, Ha1, Ha2, Hg⟩
    obtain ⟨hy, ha1, ha2⟩ := inv_phase1 m c t (by omega) x y a1 a2 (hI (by omega))
    subst hy ha1 ha2
    iapply (runF c (grid0.coords t) (ms0 t) (hs0 t) (ms1 t) (hs1 t) (ms2 t) (hs2 t) (ms3 t) (hs3 t) (ms4 t) (hs4 t) scX (Memref.isWhole_whole _) scY (Memref.isWhole_whole _) scA1 (Memref.isWhole_whole _) scA2 (Memref.isWhole_whole _) h1 h2 h3 h4 h5 h6 h7 (iblk m c 0 t) (iblk m c 1 t) (iblk m c 2 t) (iblk m c 3 t) _ x (Yfull m c) (A1v m c) (A2v m c) Set.univ _)
    isplitl [H0]; · iexact H0
    isplitl [H1]; · iexact H1
    isplitl [H2]; · iexact H2
    isplitl [H3]; · iexact H3
    isplitl [H4]; · iexact H4
    isplitl [Hx]; · iexact Hx
    isplitl [Hy]; · iexact Hy
    isplitl [Ha1]; · iexact Ha1
    isplitl [Ha2]; · iexact Ha2
    iintro ⟨H0, H1, H2, H3, H4, Hx, Hy, Ha1, Ha2⟩
    isplitl [Hx Hy Ha1 Ha2 Hg]
    · rewrite [PhiS_succ]
      iexists _; iexists _; iexists _; iexists _
      isplitr
      · ipureintro; exact inv_keep m c t (by omega) _ _ _ _ (hI (by omega))
      isplitl [Hx]; · iexact Hx
      isplitl [Hy]; · iexact Hy
      isplitl [Ha1]; · iexact Ha1
      isplitl [Ha2]; · iexact Ha2
      iexact Hg
    isplitl [Ho]; · iexact Ho
    isplitl [H0]; · iexact H0
    isplitl [H1]; · iexact H1
    isplitl [H2]; · iexact H2
    isplitl [H3]; · iexact H3
    iexact H4
  by_cases hG : t.val = 48
  · -- point 48
    have h1 : ¬cnd1 (grid0.coords t) := fun h => by have := (hc1 t).mp h; omega
    have h2 : ¬cnd2 (grid0.coords t) := fun h => by have := (hc2 t).mp h; omega
    have h3 : ¬cnd3 (grid0.coords t) := fun h => by have := (hc3 t).mp h; omega
    have h4 : ¬cnd4 (grid0.coords t) := fun h => by have := (hc4 t).mp h; omega
    have h5 : ¬cnd5 (grid0.coords t) := fun h => by have := (hc5 t).mp h; omega
    have h6 : ¬cnd6 (grid0.coords t) := fun h => by have := (hc6 t).mp h; omega
    have h7 : cnd7 (grid0.coords t) := (hc7 t).mpr hG
    rewrite [show (dats m 0 c).leavesExact 4 t = owns (c : Thread nD τ) (ms4 t) fullShare ((dats m 0 c).after 4 t) from by
      unfold Dat.leavesExact; rw [live_out t (by omega)], after0_4]
    rewrite [show OutAt m c t = k0_pay1 (A1v m c) (Yfull m c) from by unfold OutAt; rw [if_neg hF, if_pos hG]]
    iintro ⟨HΦ, Ho, ⟨%d0, H0⟩, ⟨%d1, H1⟩, ⟨%d2, H2⟩, ⟨%d3, H3⟩, ⟨%d4, H4⟩⟩
    ihave HΦ' := (PhiS_open m c t.val) $$ HΦ
    icases HΦ' with ⟨%x, %y, %a1, %a2, %hI, Hx, Hy, Ha1, Ha2, Hg⟩
    obtain ⟨hy, ha1, ha2⟩ := inv_phase1 m c t (by omega) x y a1 a2 (hI (by omega))
    subst hy ha1 ha2
    iapply (runG c (grid0.coords t) (ms0 t) (hs0 t) (ms1 t) (hs1 t) (ms2 t) (hs2 t) (ms3 t) (hs3 t) (ms4 t) (hs4 t) scX (Memref.isWhole_whole _) scY (Memref.isWhole_whole _) scA1 (Memref.isWhole_whole _) scA2 (Memref.isWhole_whole _) h1 h2 h3 h4 h5 h6 h7 (iblk m c 0 t) (iblk m c 1 t) (iblk m c 2 t) (iblk m c 3 t) _ x (Yfull m c) (A1v m c) (A2v m c) Set.univ _)
    isplitl [H0]; · iexact H0
    isplitl [H1]; · iexact H1
    isplitl [H2]; · iexact H2
    isplitl [H3]; · iexact H3
    isplitl [H4]; · iexact H4
    isplitl [Hx]; · iexact Hx
    isplitl [Hy]; · iexact Hy
    isplitl [Ha1]; · iexact Ha1
    isplitl [Ha2]; · iexact Ha2
    iintro ⟨H0, H1, H2, H3, H4, Hx, Hy, Ha1, Ha2⟩
    isplitl [Hx Hy Ha1 Ha2 Hg]
    · rewrite [PhiS_succ]
      iexists _; iexists _; iexists _; iexists _
      isplitr
      · ipureintro; exact inv_keep m c t (by omega) _ _ _ _ (hI (by omega))
      isplitl [Hx]; · iexact Hx
      isplitl [Hy]; · iexact Hy
      isplitl [Ha1]; · iexact Ha1
      isplitl [Ha2]; · iexact Ha2
      iexact Hg
    isplitl [Ho]; · iexact Ho
    isplitl [H0]; · iexact H0
    isplitl [H1]; · iexact H1
    isplitl [H2]; · iexact H2
    isplitl [H3]; · iexact H3
    iexact H4
  · -- points 25 … 46 and 49
    have h1 : ¬cnd1 (grid0.coords t) := fun h => by have := (hc1 t).mp h; omega
    have h2 : ¬cnd2 (grid0.coords t) := fun h => by have := (hc2 t).mp h; omega
    have h3 : ¬cnd3 (grid0.coords t) := fun h => by have := (hc3 t).mp h; omega
    have h4 : ¬cnd4 (grid0.coords t) := fun h => by have := (hc4 t).mp h; omega
    have h5 : cnd5 (grid0.coords t) := (hc5 t).mpr (by omega)
    have h6 : ¬cnd6 (grid0.coords t) := fun h => by have := (hc6 t).mp h; omega
    have h7 : ¬cnd7 (grid0.coords t) := fun h => by have := (hc7 t).mp h; omega
    rewrite [show (dats m 0 c).leavesExact 4 t = owns (c : Thread nD τ) (ms4 t) fullShare ((dats m 0 c).after 4 t) from by
      unfold Dat.leavesExact; rw [live_out t (by omega)], after0_4]
    rewrite [show OutAt m c t = k0_pay6 (iblk m c 3 t) (Yfull m c) from by unfold OutAt; rw [if_neg hF, if_neg hG]]
    iintro ⟨HΦ, Ho, ⟨%d0, H0⟩, ⟨%d1, H1⟩, ⟨%d2, H2⟩, ⟨%d3, H3⟩, ⟨%d4, H4⟩⟩
    ihave HΦ' := (PhiS_open m c t.val) $$ HΦ
    icases HΦ' with ⟨%x, %y, %a1, %a2, %hI, Hx, Hy, Ha1, Ha2, Hg⟩
    obtain ⟨hy, ha1, ha2⟩ := inv_phase1 m c t (by omega) x y a1 a2 (hI (by omega))
    subst hy ha1 ha2
    iapply (runE c (grid0.coords t) (ms0 t) (hs0 t) (ms1 t) (hs1 t) (ms2 t) (hs2 t) (ms3 t) (hs3 t) (ms4 t) (hs4 t) scX (Memref.isWhole_whole _) scY (Memref.isWhole_whole _) scA1 (Memref.isWhole_whole _) scA2 (Memref.isWhole_whole _) h1 h2 h3 h4 h5 h6 h7 (iblk m c 0 t) (iblk m c 1 t) (iblk m c 2 t) (iblk m c 3 t) _ x (Yfull m c) (A1v m c) (A2v m c) Set.univ _)
    isplitl [H0]; · iexact H0
    isplitl [H1]; · iexact H1
    isplitl [H2]; · iexact H2
    isplitl [H3]; · iexact H3
    isplitl [H4]; · iexact H4
    isplitl [Hx]; · iexact Hx
    isplitl [Hy]; · iexact Hy
    isplitl [Ha1]; · iexact Ha1
    isplitl [Ha2]; · iexact Ha2
    iintro ⟨H0, H1, H2, H3, H4, Hx, Hy, Ha1, Ha2⟩
    isplitl [Hx Hy Ha1 Ha2 Hg]
    · rewrite [PhiS_succ]
      iexists _; iexists _; iexists _; iexists _
      isplitr
      · ipureintro; exact inv_keep m c t (by omega) _ _ _ _ (hI (by omega))
      isplitl [Hx]; · iexact Hx
      isplitl [Hy]; · iexact Hy
      isplitl [Ha1]; · iexact Ha1
      isplitl [Ha2]; · iexact Ha2
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rewrite [show (dats m 0 c).Φ 0 = Pipeline.ΦA spec0 c from rfl]
  exact Idealize.SL.BI.Entails.refl _

/-- After the last point the invariant gives the class's back: what the scratch buffers hold is forgotten. -/
theorem hout (c : Dev nD) : (dats m 0 c).Φ (Fin.last cfg0.N) ⊢ Pipeline.ΦA spec0 c := by
  rewrite [show (dats m 0 c).Φ (Fin.last cfg0.N) = PhiS m c (49 + 1) from rfl, PhiS_succ, PhiA0_eq]
  iintro ⟨%x, %y, %a1, %a2, -, Hx, Hy, H1, H2, Hg⟩
  isplitl [Hx Hy H1 H2]
  · isplitl [Hx]; · iexists _; iexact Hx
    isplitl [Hy]; · iexists _; iexact Hy
    isplitl [H1]; · iexists _; iexact H1
    iexists _; iexact H2
  iexact Hg

/-! ## The run and the frame -/

set_option backward.isDefEq.respectTransparency.types false in
/-- Every weakly fair execution of @main terminates, and every final state has every array of the pipeline at what the
    library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, nothing faults, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Gen

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibERealSums.lean ====
/-
  Finite sums of real numbers inside the extended reals. The inclusion of the reals into [−∞, +∞] carries a finite
  sum to the sum of the inclusions (by induction on the index set, from the two-term case), so a sum of products of
  included reals is the included sum of the real products.
-/
import Idealize.ShloMosaic.PureOps.Ideal

noncomputable section

namespace Cert.Attn

/-- The inclusion ℝ → [−∞, +∞] commutes with a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ k, f k : ℝ) : EReal) = ∑ k, ((f k : ℝ) : EReal) := coe_sum _ _

/-- A sum of products of included reals is the included sum of the products. -/
theorem sum_coe_mul_coe {ι : Type} [Fintype ι] (f g : ι → ℝ) :
    ∑ k, ((f k : ℝ) : EReal) * ((g k : ℝ) : EReal) = ((∑ k, f k * g k : ℝ) : EReal) := by
  rw [coe_sum_univ]
  exact Finset.sum_congr rfl fun k _ => (EReal.coe_mul _ _).symm

/-- The maximum, from −∞, of finitely many included reals over a nonempty index set is an included real. -/
theorem fold_max_coe_exists {ι : Type} (s : Finset ι) (hs : s.Nonempty) (f : ι → ℝ) :
    ∃ ρ : ℝ, s.fold max (⊥ : EReal) (fun k => ((f k : ℝ) : EReal)) = (ρ : EReal) := by
  classical
  induction hs using Finset.Nonempty.cons_induction with
  | singleton a => exact ⟨f a, by simp⟩
  | cons a s ha hs ih =>
    obtain ⟨ρ, hρ⟩ := ih
    refine ⟨max (f a) ρ, ?_⟩
    rw [Finset.fold_cons, hρ]
    exact (EReal.coe_strictMono.monotone.map_max).symm

end Cert.Attn

end
-- ==== Proof.ChainSpec.lean ====
/-
  The algebra that joins the two programs. With A an n × n matrix, X an n × p matrix, U p × h and W h × q:
      A · ((A · (X · U)) · W)   =   A · (A · (X · (U · W)))
  entry by entry. Over the extended reals this is NOT an identity (moving a factor across a sum fails at the
  infinities), but when every entry of the four matrices is a real number both sides are the same finite real
  triple sum: the inner equality is associativity of the matrix product, that is, exchanging finite sums and
  distributing, in ℝ.
-/
import proofs.«165262_g80814104642079_cont_9to1c4b_39_18_alg».proof.Proof.LibERealSums

open scoped BigOperators

noncomputable section

namespace Cert.Chain

open Cert.Attn

variable {n p h q : ℕ}

/-- Associativity of the matrix product at one entry, in ℝ: ((A·(X·U))·W)(k, l) = (A·(X·(U·W)))(k, l). -/
theorem inner_real (A : Fin n → Fin n → ℝ) (X : Fin n → Fin p → ℝ) (U : Fin p → Fin h → ℝ) (W : Fin h → Fin q → ℝ)
    (k : Fin n) (l : Fin q) :
    ∑ b, (∑ j, A k j * ∑ a, X j a * U a b) * W b l = ∑ j, A k j * ∑ a, X j a * ∑ b, U a b * W b l := by
  simp only [Finset.sum_mul, Finset.mul_sum]
  rw [Finset.sum_comm]
  refine Finset.sum_congr rfl fun j _ => ?_
  rw [Finset.sum_comm]
  refine Finset.sum_congr rfl fun a _ => ?_
  refine Finset.sum_congr rfl fun b _ => ?_
  ring

/-- The reference's grouping, over the extended reals. -/
def refSide (A : Fin n → Fin n → EReal) (X : Fin n → Fin p → EReal) (U : Fin p → Fin h → EReal) (W : Fin h → Fin q → EReal)
    (r : Fin n) (l : Fin q) : EReal :=
  ∑ k, A r k * ∑ b, (∑ j, A k j * ∑ a, X j a * U a b) * W b l

/-- The kernel's grouping, over the extended reals. -/
def kerSide (A : Fin n → Fin n → EReal) (X : Fin n → Fin p → EReal) (U : Fin p → Fin h → EReal) (W : Fin h → Fin q → EReal)
    (r : Fin n) (l : Fin q) : EReal :=
  ∑ k, A r k * ∑ j, A k j * ∑ a, X j a * ∑ b, U a b * W b l

/-- When every entry is a real number the two groupings agree. -/
theorem refSide_eq_kerSide (A : Fin n → Fin n → EReal) (X : Fin n → Fin p → EReal) (U : Fin p → Fin h → EReal)
    (W : Fin h → Fin q → EReal)
    (hA : ∀ i j, ∃ r : ℝ, A i j = (r : EReal)) (hX : ∀ i j, ∃ r : ℝ, X i j = (r : EReal))
    (hU : ∀ i j, ∃ r : ℝ, U i j = (r : EReal)) (hW : ∀ i j, ∃ r : ℝ, W i j = (r : EReal))
    (r : Fin n) (l : Fin q) : refSide A X U W r l = kerSide A X U W r l := by
  choose A' hA' using hA
  choose X' hX' using hX
  choose U' hU' using hU
  choose W' hW' using hW
  unfold refSide kerSide
  simp only [hA', hX', hU', hW', ← EReal.coe_mul, ← coe_sum_univ]
  refine congrArg _ (Finset.sum_congr rfl fun k _ => ?_)
  rw [inner_real A' X' U' W' k l]

end Cert.Chain

end
-- ==== Proof.KI.Value.lean ====
/-
  What the fused kernel's result array holds after the run, at the exact extended reals, as ONE function of the
  four argument arrays. Reading the carried values at an entry:
    x(j, l)  = Σ_a feat(j, a) · Σ_b W1(a, b) · W2(b, l)
    y(k, l)  = Σ_j adj(k, j) · x(j, l)        (band k / 400, stored at point k / 400)
    out block at point t ≥ 25, entry (p, l) = Σ_k adj(400·(49 − t) + p, k) · y(k, l)
  (a change of float format is the identity, a matrix product into a zero accumulator is the plain sum; at points
  47 and 48 the adjacency block comes from the caches filled at points 2 and 1, which are blocks 2 and 1).
  Point t ≥ 25 writes back block 49 − t of the result, each block once, and the 25 blocks tile the array: so the
  array ends at the kernel's grouping `Cert.Chain.kerSide` of the arguments.
-/
import proofs.«165262_g80814104642079_cont_9to1c4b_39_18_alg».proof.Proof.KI.Body
import proofs.«165262_g80814104642079_cont_9to1c4b_39_18_alg».proof.Proof.LibPlainMatmul
import Idealize.ShloMosaic.Lib.Pipeline.Value
import Idealize.ShloMosaic.Lib.ValueIdx
import proofs.«165262_g80814104642079_cont_9to1c4b_39_18_alg».proof.Proof.ChainSpec
set_option maxRecDepth 16384

open scoped BigOperators

noncomputable section

namespace Cert.KernelIdeal.Gen

open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## The payloads at an entry -/

theorem pay2_apply (x1 : Vec Ideal S128x64 .f32) (x2 : Vec Ideal S64x64 .f32) (x0 : Vec Ideal S10000x128 .f32) (j : Fin 10000) (q : Fin 64) :
    k0_pay2 x1 x2 x0 (ix2 j q) = ∑ a : Fin 128, x0 (ix2 j a) * ∑ b : Fin 64, x1 (ix2 a b) * x2 (ix2 b q) := by
  unfold k0_pay2
  refine (congrFun (shapeCast_self _ _) _).trans ?_
  refine (matmul_plain_zero_apply Facts₀.dot_S10000x128_S128x64_S10000x64_1_0_0_1_n_n_wf none x0 _ j q).trans ?_
  exact Finset.sum_congr rfl fun a _ => congrArg _ (matmul_plain_zero_apply Facts₀.dot_S128x64_S64x64_S128x64_1_0_0_1_n_n_wf none x1 x2 a q)

theorem pay5_apply (x3 : Vec Ideal S400x10000 .f32) (xs : Vec Ideal S10000x64 .bf16) (p : Fin 400) (q : Fin 64) :
    k0_pay5 x3 xs (ix2 p q) = ∑ k : Fin 10000, x3 (ix2 p k) * xs (ix2 k q) := by
  unfold k0_pay5
  refine (congrFun (shapeCast_self _ _) _).trans ?_
  exact matmul_plain_zero_apply (φ₁ := .bf16) (φ₂ := .bf16) Facts₀.dot_S400x10000_S10000x64_S400x64_1_0_0_1_n_n_wf none _ xs p q

theorem pay6_apply (x3 : Vec Ideal S400x10000 .f32) (ys : Vec Ideal S10000x64 .bf16) (p : Fin 400) (q : Fin 64) :
    k0_pay6 x3 ys (ix2 p q) = ∑ k : Fin 10000, x3 (ix2 p k) * ys (ix2 k q) := by
  unfold k0_pay6
  exact matmul_plain_zero_apply (φ₁ := .bf16) (φ₂ := .bf16) Facts₀.dot_S400x10000_S10000x64_S400x64_1_0_0_1_n_n_wf none _ ys p q

theorem pay7_apply (a : Vec Ideal S400x10000 .bf16) (ys : Vec Ideal S10000x64 .bf16) (p : Fin 400) (q : Fin 64) :
    k0_pay7 a ys (ix2 p q) = ∑ k : Fin 10000, a (ix2 p k) * ys (ix2 k q) := by
  unfold k0_pay7
  exact matmul_plain_zero_apply (φ₁ := .bf16) (φ₂ := .bf16) Facts₀.dot_S400x10000_S10000x64_S400x64_1_0_0_1_n_n_wf none a ys p q

theorem pay1_apply (a : Vec Ideal S400x10000 .bf16) (ys : Vec Ideal S10000x64 .bf16) (p : Fin 400) (q : Fin 64) :
    k0_pay1 a ys (ix2 p q) = ∑ k : Fin 10000, a (ix2 p k) * ys (ix2 k q) := by
  unfold k0_pay1
  exact matmul_plain_zero_apply (φ₁ := .bf16) (φ₂ := .bf16) Facts₀.dot_S400x10000_S10000x64_S400x64_1_0_0_1_n_n_wf none a ys p q

theorem pay3_eq (x3 : Vec Ideal S400x10000 .f32) : k0_pay3 x3 = x3 := by
  unfold k0_pay3
  exact shapeCast_self _ _

theorem pay4_eq (x3 : Vec Ideal S400x10000 .f32) : k0_pay4 x3 = x3 := by
  unfold k0_pay4
  exact shapeCast_self _ _

/-! ## The printed index maps, decided over the grid -/

/-- The three small inputs are one block each. -/
theorem idx_in : ∀ t : Fin cfg0.N, win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0])
/-- Phase 0 streams adjacency block t at point t; -/
theorem idx3_p0 : ∀ t : Fin cfg0.N, t.val < 25 → win0_3.index t = ![t.val, 0] :=
  (by decide +kernel : ∀ t : Fin grid0.N, t.val < 25 → win0_3.index t = ![t.val, 0])
/-- phase 1 streams block 49 − t, except at the two cached points. -/
theorem idx3_p1 : ∀ t : Fin cfg0.N, 25 ≤ t.val → t.val ≠ 47 → t.val ≠ 48 → win0_3.index t = ![49 - t.val, 0] :=
  (by decide +kernel : ∀ t : Fin grid0.N, 25 ≤ t.val → t.val ≠ 47 → t.val ≠ 48 → win0_3.index t = ![49 - t.val, 0])
/-- In phase 1 the output window is on block 49 − t, -/
theorem idx4_p1 : ∀ t : Fin cfg0.N, 25 ≤ t.val → win0_4.index t = ![49 - t.val, 0] :=
  (by decide +kernel : ∀ t : Fin grid0.N, 25 ≤ t.val → win0_4.index t = ![49 - t.val, 0])
/-- and it is written back exactly at the points of phase 1. -/
theorem flush4 : ∀ t : Fin cfg0.N, (cfg0.win 4).flush t = true ↔ 25 ≤ t.val :=
  (by decide +kernel : ∀ t : Fin grid0.N, win0_4.flush t = true ↔ 25 ≤ t.val)

/-! ## The windows' blocks at an entry -/

theorem iblk0_apply (c : Dev nD) (t : Fin cfg0.N) (j : Fin 10000) (a : Fin 128) :
    iblk m c 0 t (ix2 j a) = m ((c : Thread nD τ).loc main_arg0) (ix2 j a) := by
  show m ((c : Thread nD τ).loc main_arg0) (((cfg0.win 0).blk t).view.emb (ix2 j a)) = _
  congr 1
  funext ax; apply Fin.ext
  match ax with
  | ⟨0, _⟩ => show win0_0.index t (0 : Fin 2) * 10000 + 1 * j.val = j.val; rw [(idx_in t).1]; simp
  | ⟨1, _⟩ => show win0_0.index t (1 : Fin 2) * 128 + 1 * a.val = a.val; rw [(idx_in t).1]; simp

theorem iblk1_apply (c : Dev nD) (t : Fin cfg0.N) (a : Fin 128) (b : Fin 64) :
    iblk m c 1 t (ix2 a b) = m ((c : Thread nD τ).loc main_arg2) (ix2 a b) := by
  show m ((c : Thread nD τ).loc main_arg2) (((cfg0.win 1).blk t).view.emb (ix2 a b)) = _
  congr 1
  funext ax; apply Fin.ext
  match ax with
  | ⟨0, _⟩ => show win0_1.index t (0 : Fin 2) * 128 + 1 * a.val = a.val; rw [(idx_in t).2.1]; simp
  | ⟨1, _⟩ => show win0_1.index t (1 : Fin 2) * 64 + 1 * b.val = b.val; rw [(idx_in t).2.1]; simp

theorem iblk2_apply (c : Dev nD) (t : Fin cfg0.N) (b : Fin 64) (q : Fin 64) :
    iblk m c 2 t (ix2 b q) = m ((c : Thread nD τ).loc main_arg3) (ix2 b q) := by
  show m ((c : Thread nD τ).loc main_arg3) (((cfg0.win 2).blk t).view.emb (ix2 b q)) = _
  congr 1
  funext ax; apply Fin.ext
  match ax with
  | ⟨0, _⟩ => show win0_2.index t (0 : Fin 2) * 64 + 1 * b.val = b.val; rw [(idx_in t).2.2]; simp
  | ⟨1, _⟩ => show win0_2.index t (1 : Fin 2) * 64 + 1 * q.val = q.val; rw [(idx_in t).2.2]; simp

/-- Entry (p, k) of the adjacency window's block at a point where it is on block `b` is adj(400·b + p, k). -/
theorem iblk3_apply (c : Dev nD) (t : Fin cfg0.N) (b : ℕ) (hb : win0_3.index t = ![b, 0]) (p : Fin 400) (k : Fin 10000)
    (r : Fin 10000) (hr : r.val = 400 * b + p.val) :
    iblk m c 3 t (ix2 p k) = m ((c : Thread nD τ).loc main_arg1) (ix2 r k) := by
  show m ((c : Thread nD τ).loc main_arg1) (((cfg0.win 3).blk t).view.emb (ix2 p k)) = _
  congr 1
  funext ax; apply Fin.ext
  match ax with
  | ⟨0, _⟩ => show win0_3.index t (0 : Fin 2) * 400 + 1 * p.val = r.val; rw [hb, hr]; simp; omega
  | ⟨1, _⟩ => show win0_3.index t (1 : Fin 2) * 10000 + 1 * k.val = k.val; rw [hb]; simp

/-! ## The carried values at an entry -/

/-- The four argument arrays as matrices of extended reals. -/
abbrev adjM (c : Dev nD) : Fin 10000 → Fin 10000 → EReal := fun i j => m ((c : Thread nD τ).loc main_arg1) (ix2 i j)
abbrev featM (c : Dev nD) : Fin 10000 → Fin 128 → EReal := fun i j => m ((c : Thread nD τ).loc main_arg0) (ix2 i j)
abbrev w1M (c : Dev nD) : Fin 128 → Fin 64 → EReal := fun i j => m ((c : Thread nD τ).loc main_arg2) (ix2 i j)
abbrev w2M (c : Dev nD) : Fin 64 → Fin 64 → EReal := fun i j => m ((c : Thread nD τ).loc main_arg3) (ix2 i j)

theorem Xv_apply (c : Dev nD) (j : Fin 10000) (q : Fin 64) :
    Xv m c (ix2 j q) = ∑ a, featM m c j a * ∑ b, w1M m c a b * w2M m c b q := by
  unfold Xv
  rw [pay2_apply]
  refine Finset.sum_congr rfl fun a _ => ?_
  rw [iblk0_apply]
  refine congrArg _ (Finset.sum_congr rfl fun b _ => ?_)
  rw [iblk1_apply, iblk2_apply]

theorem Yfull_apply (c : Dev nD) (k : Fin 10000) (q : Fin 64) :
    Yfull m c (ix2 k q) = ∑ j, adjM m c k j * Xv m c (ix2 j q) := by
  have hk : k.val < 10000 := k.isLt
  show Yrow m c (pt (k.val / 400) _) (bandPos (ix2 k q)) = _
  unfold Yrow
  have hb : bandPos (ix2 k q) = ix2 (⟨k.val - 400 * (k.val / 400), by omega⟩ : Fin 400) q := by
    funext a; apply Fin.ext
    match a with
    | ⟨0, _⟩ => rfl
    | ⟨1, _⟩ => show q.val - 0 = q.val; omega
  rw [hb, pay5_apply]
  refine Finset.sum_congr rfl fun j _ => ?_
  rw [iblk3_apply m c (pt (k.val / 400) (by omega)) (k.val / 400) (idx3_p0 _ (by show k.val / 400 < 25; omega)) _ j k
    (by show k.val = 400 * (k.val / 400) + (k.val - 400 * (k.val / 400)); omega)]

/-- The output block at a second-pass point, at an entry: row 400·(49 − t) + p of adj·y. -/
theorem OutAt_apply (c : Dev nD) (t : Fin cfg0.N) (ht : 25 ≤ t.val) (p : Fin 400) (q : Fin 64) (r : Fin 10000)
    (hr : r.val = 400 * (49 - t.val) + p.val) :
    OutAt m c t (ix2 p q) = ∑ k, adjM m c r k * Yfull m c (ix2 k q) := by
  unfold OutAt
  by_cases h47 : t.val = 47
  · rw [if_pos h47, pay7_apply]
    refine Finset.sum_congr rfl fun k _ => ?_
    unfold A2v
    rw [pay4_eq, iblk3_apply m c (pt 2 (by decide)) 2 (idx3_p0 _ (by decide)) p k r (by rw [hr, h47])]
  · rw [if_neg h47]
    by_cases h48 : t.val = 48
    · rw [if_pos h48, pay1_apply]
      refine Finset.sum_congr rfl fun k _ => ?_
      unfold A1v
      rw [pay3_eq, iblk3_apply m c (pt 1 (by decide)) 1 (idx3_p0 _ (by decide)) p k r (by rw [hr, h48])]
    · rw [if_neg h48, pay6_apply]
      refine Finset.sum_congr rfl fun k _ => ?_
      rw [iblk3_apply m c t (49 - t.val) (idx3_p1 t ht h47 h48) p k r hr]

/-! ## From the blocks to the array -/

/-- The result array as one function of the argument arrays: the kernel's grouping of the chain. -/
def G (c : Dev nD) : S10000x64.Idx → EReal := fun i =>
  Cert.Chain.kerSide (adjM m c) (featM m c) (w1M m c) (w2M m c) (i 0) (i 1)

theorem G_apply (c : Dev nD) (r : Fin 10000) (q : Fin 64) :
    G m c (ix2 r q) = ∑ k, adjM m c r k * Yfull m c (ix2 k q) := by
  unfold G Cert.Chain.kerSide
  refine Finset.sum_congr rfl fun k _ => congrArg _ ?_
  rw [Yfull_apply]
  refine Finset.sum_congr rfl fun j _ => congrArg _ ?_
  rw [Xv_apply]

/-- What a second-pass point writes back is its block of `G`. -/
theorem flushed4_eq (c : Dev nD) (t : Fin cfg0.N) (hf : (cfg0.win 4).flush t = true) :
    (dats m 0 c).flushed 4 t = ((cfg0.win 4).blk t).view.read (Elt Ideal) (G m c) := by
  have ht : 25 ≤ t.val := (flush4 t).mp hf
  have hN := val_lt t
  show (cfg0.win 4).cut (grid0.coords t) ((dats m 0 c).after 4 t) = _
  rw [after0_4]
  funext j
  obtain ⟨p, q, rfl⟩ : ∃ (p : Fin 400) (q : Fin 64), j = ix2 p q := ⟨j 0, j 1, eq_ix2 j⟩
  have hp : p.val < 400 := p.isLt
  show OutAt m c t (ix2 p q) = G m c (((cfg0.win 4).blk t).view.emb (ix2 p q))
  have he : ((cfg0.win 4).blk t).view.emb (ix2 p q) = ix2 (⟨400 * (49 - t.val) + p.val, by omega⟩ : Fin 10000) q := by
    funext ax; apply Fin.ext
    match ax with
    | ⟨0, _⟩ => show win0_4.index t (0 : Fin 2) * 400 + 1 * p.val = 400 * (49 - t.val) + p.val; rw [idx4_p1 t ht]; simp; omega
    | ⟨1, _⟩ => show win0_4.index t (1 : Fin 2) * 64 + 1 * q.val = q.val; rw [idx4_p1 t ht]; simp
  rw [he, G_apply, OutAt_apply m c t ht p q ⟨400 * (49 - t.val) + p.val, by omega⟩ rfl]

/-- An index of the result is in point `t`'s block iff its coordinates are in the block's ranges. -/
theorem mem_blk4 (t : Fin cfg0.N) (i : S10000x64.Idx) :
    i ∈ ((cfg0.win 4).blk t).view.set ↔ ∀ a : Fin 2, win0_4.index t a * S400x64.size a ≤ (i a).val ∧ (i a).val < win0_4.index t a * S400x64.size a + S400x64.size a := by
  show i ∈ ((View.whole main_v0).slice (win0_4.rect t)).set ↔ _
  rw [View.set_slice_whole, Rect.mem_set_unit]
  exact Iff.rfl

/-- The 25 blocks written back tile the result: row r is in the block of point 49 − r / 400. -/
theorem cover4 (i : S10000x64.Idx) : ∃ t : Fin cfg0.N, (cfg0.win 4).flush t = true ∧ i ∈ ((cfg0.win 4).blk t).view.set := by
  have h0 : (i 0).val < 10000 := (i 0).isLt
  have h1 : (i 1).val < 64 := (i 1).isLt
  have ht : 25 ≤ (pt (49 - (i 0).val / 400) (by omega)).val := by show 25 ≤ 49 - (i 0).val / 400; omega
  refine ⟨pt (49 - (i 0).val / 400) (by omega), (flush4 _).mpr ht, ?_⟩
  rw [mem_blk4]
  intro a
  match a with
  | ⟨0, _⟩ =>
    show win0_4.index _ (0 : Fin 2) * 400 ≤ (i 0).val ∧ (i 0).val < win0_4.index _ (0 : Fin 2) * 400 + 400
    rw [idx4_p1 _ ht]
    show (49 - (49 - (i 0).val / 400)) * 400 ≤ (i 0).val ∧ (i 0).val < (49 - (49 - (i 0).val / 400)) * 400 + 400
    omega
  | ⟨1, _⟩ =>
    show win0_4.index _ (1 : Fin 2) * 64 ≤ (i 1).val ∧ (i 1).val < win0_4.index _ (1 : Fin 2) * 64 + 64
    rw [idx4_p1 _ ht]
    show 0 * 64 ≤ (i 1).val ∧ (i 1).val < 0 * 64 + 64
    omega

/-- The result array after the run. -/
theorem final4 (c : Dev nD) : (dats m 0 c).arrAt 4 cfg0.N = G m c :=
  (dats m 0 c).arrAt_eq_of_cover 4 (G m c) (fun t hf => flushed4_eq m c t hf) (cover4)

/-- The run, read: the result array at `G` of the arguments, the arguments unchanged. -/
theorem run_value : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final4 m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.Gen

end
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.RefValue.lean ====
/-
  The reference at an entry, at the exact extended reals. Its result is four matrix products,
      adj · ((adj · (feat · W1)) · W2),
  each a plain sum over the contracted coordinate; written out, entry (r, l) is the reference's grouping
  `Cert.Chain.refSide` of the four argument arrays.
-/
import proofs.«165262_g80814104642079_cont_9to1c4b_39_18_alg».proof.Proof.Gen.ReferenceIdeal.Read
import proofs.«165262_g80814104642079_cont_9to1c4b_39_18_alg».proof.Proof.LibPlainDotGeneral
import proofs.«165262_g80814104642079_cont_9to1c4b_39_18_alg».proof.Proof.ChainSpec

open scoped BigOperators

noncomputable section

namespace Cert.ReferenceIdeal.RefValue

open Idealize.ShloMosaic Idealize.ShloMosaic.ValueIdx Cert.ReferenceIdeal

/-- The reference's composed term, read at entry (r, l). -/
theorem ref_apply (feat : FVec Ideal S10000x128 .f32) (adj : FVec Ideal S10000x10000 .f32) (W1 : FVec Ideal S128x64 .f32)
    (W2 : FVec Ideal S64x64 .f32) (r : Fin 10000) (l : Fin 64) :
    Host.dotGeneral dot_S10000x10000_S10000x64_S10000x64_1_0_0_1_n_n none adj
        (Host.dotGeneral dot_S10000x64_S64x64_S10000x64_1_0_0_1_n_n none
          (Host.dotGeneral dot_S10000x10000_S10000x64_S10000x64_1_0_0_1_n_n none adj
            (Host.dotGeneral dot_S10000x128_S128x64_S10000x64_1_0_0_1_n_n none feat W1)) W2) (ix2 r l)
      = Cert.Chain.refSide (fun i j => adj (ix2 i j)) (fun i j => feat (ix2 i j)) (fun i j => W1 (ix2 i j))
          (fun i j => W2 (ix2 i j)) r l := by
  unfold Cert.Chain.refSide
  refine (dotGeneral_plain_apply (φ₁ := .f32) (φ₂ := .f32) Facts₀.dot_S10000x10000_S10000x64_S10000x64_1_0_0_1_n_n_wf none adj _ r l).trans ?_
  refine Finset.sum_congr rfl fun k _ => congrArg _ ?_
  refine (dotGeneral_plain_apply (φ₁ := .f32) (φ₂ := .f32) Facts₀.dot_S10000x64_S64x64_S10000x64_1_0_0_1_n_n_wf none _ W2 k l).trans ?_
  refine Finset.sum_congr rfl fun b _ => congrArg (· * _) ?_
  refine (dotGeneral_plain_apply (φ₁ := .f32) (φ₂ := .f32) Facts₀.dot_S10000x10000_S10000x64_S10000x64_1_0_0_1_n_n_wf none adj _ k b).trans ?_
  refine Finset.sum_congr rfl fun j _ => congrArg _ ?_
  exact dotGeneral_plain_apply (φ₁ := .f32) (φ₂ := .f32) Facts₀.dot_S10000x128_S128x64_S10000x64_1_0_0_1_n_n_wf none feat W1 j b

end Cert.ReferenceIdeal.RefValue

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.FiniteInputs.lean ====
/-
  The precondition "every float input is finite", decoded at the exact extended reals: if the printed predicate is
  all ones, every entry of each of the four argument arrays is a real number. The predicate is the conjunction of
  four "all entries satisfy |x| < +∞" reductions; each conjunct gives the comparison at every index, and an
  extended real whose absolute value is below +∞ is a real.
-/
import proofs.«165262_g80814104642079_cont_9to1c4b_39_18_alg».proof.Pre_finite_inputs
import proofs.«165262_g80814104642079_cont_9to1c4b_39_18_alg».proof.Proof.Gen.Pre_finite_inputs
import proofs.«165262_g80814104642079_cont_9to1c4b_39_18_alg».proof.Proof.LibFiniteEntry
import Idealize.ShloMosaic.Lib.ReduceAll
import Idealize.ShloMosaic.Lib.ValueIdx
import Idealize.ShloMosaic.Lib.Affine

namespace Cert.FiniteInputs

open Idealize.ShloMosaic Cert.Pre_finite_inputs

/-- The scalar shape has one index. -/
instance : Subsingleton S_.Idx := ⟨fun a b => funext fun d => d.elim0⟩

theorem finite_of_pre [Cert.Pre_finite_inputs.Facts] (a0 : FVec Ideal S10000x128 .f32) (a1 : FVec Ideal S10000x10000 .f32)
    (a2 : FVec Ideal S128x64 .f32) (a3 : FVec Ideal S64x64 .f32)
    (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ValueIdx.ix0
  dsimp only [fn, fn_part1] at h0
  simp only [andi, IntOp.andi_eq_one] at h0
  obtain ⟨⟨⟨e0, e1⟩, e2⟩, e3⟩ := h0
  have p0 := Host.reduce_andi_all _ _ _ _ _ e0
  have p1 := Host.reduce_andi_all _ _ _ _ _ e1
  have p2 := Host.reduce_andi_all _ _ _ _ _ e2
  have p3 := Host.reduce_andi_all _ _ _ _ _ e3
  exact ⟨fun i => Ideal.real_of_abs_lt_inf (a0 i) (p0 i), fun i => Ideal.real_of_abs_lt_inf (a1 i) (p1 i),
    fun i => Ideal.real_of_abs_lt_inf (a2 i) (p2 i), fun i => Ideal.real_of_abs_lt_inf (a3 i) (p3 i)⟩

end Cert.FiniteInputs
-- ==== Proof.lean ====
/-
  The certificate of the fused two-pass kernel  out = adj · (adj · (feat · (W1 · W2)))  against the reference
  adj · ((adj · (feat · W1)) · W2).

  The kernel runs a grid of 2 × 25 points over blocks of 400 adjacency rows. Phase 0 (points 0 … 24) computes
  x = feat · (W1 · W2) once, then y = adj · x one band of 400 rows per point, keeping adjacency blocks 1 and 2 in two
  caches; phase 1 (points 25 … 49) computes the result block 49 − t at point t from y, reading blocks 2 and 1 from
  the caches. Changes of float format are the identity at the exact extended reals.

  The three frames: each program runs to the end, nothing faults, the argument arrays end unchanged. For the two
  kernel programs this is the frame run over the invariant "x, the bands of y stored so far and the caches are what
  the schedule says" (Proof/K and Proof/KI: the same text at the word level and at the exact reals); for the
  reference it is its run with the result dropped.
  The value: the kernel's result array ends at the kernel's grouping of the chain, entry by entry
  (Proof/KI/Value.lean), the reference's at its own (Proof/RefValue.lean), and the two groupings agree because the
  precondition makes every entry of the four arguments a real number (Proof/FiniteInputs.lean), where the matrix
  product is associative (Proof/ChainSpec.lean). The idealization rewrote nothing, so it is preserved trivially.
-/
import proofs.«165262_g80814104642079_cont_9to1c4b_39_18_alg».proof.Defs
import proofs.«165262_g80814104642079_cont_9to1c4b_39_18_alg».proof.Proof.Gen.Kernel
import proofs.«165262_g80814104642079_cont_9to1c4b_39_18_alg».proof.Proof.Gen.KernelIdeal
import proofs.«165262_g80814104642079_cont_9to1c4b_39_18_alg».proof.Proof.Gen.ReferenceIdeal
import proofs.«165262_g80814104642079_cont_9to1c4b_39_18_alg».proof.Proof.Gen.Pre_finite_inputs
import proofs.«165262_g80814104642079_cont_9to1c4b_39_18_alg».proof.Proof.K.Body
import proofs.«165262_g80814104642079_cont_9to1c4b_39_18_alg».proof.Proof.KI.Value
import proofs.«165262_g80814104642079_cont_9to1c4b_39_18_alg».proof.Proof.RefValue
import proofs.«165262_g80814104642079_cont_9to1c4b_39_18_alg».proof.Proof.FiniteInputs
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same result: the kernel's array at its grouping of the chain, the reference's at its
    own, equal entry by entry since every argument entry is a real number. -/
theorem algebraic : Cert.algebraic_KernelIdeal_ReferenceIdeal := by
  intro m ρ m' ρ' hpre hagree
  refine ⟨fun c => Cert.KernelIdeal.Gen.G m c, Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  funext i
  obtain ⟨r, l, rfl⟩ : ∃ (r : Fin 10000) (l : Fin 64), i = ix2 r l := ⟨i 0, i 1, eq_ix2 i⟩
  refine (Cert.ReferenceIdeal.RefValue.ref_apply _ _ _ _ r l).trans ?_
  obtain ⟨h0, h1, h2, h3⟩ := Cert.FiniteInputs.finite_of_pre _ _ _ _ (hpre c)
  exact Cert.Chain.refSide_eq_kerSide _ _ _ _ (fun i j => h1 _) (fun i j => h0 _) (fun i j => h2 _) (fun i j => h3 _) r l

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
